-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x4096 .f32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩
abbrev S1x11008 : Shape := ⟨2, ![1, 11008]⟩
abbrev S8192x4096 : Shape := ⟨2, ![8192, 4096]⟩
abbrev S8192x11008 : Shape := ⟨2, ![8192, 11008]⟩
abbrev S2048x1024 : Shape := ⟨2, ![2048, 1024]⟩
abbrev S1024x1024 : Shape := ⟨2, ![1024, 1024]⟩
abbrev S1x1024 : Shape := ⟨2, ![1, 1024]⟩
abbrev S4x2048x11008 : Shape := ⟨3, ![4, 2048, 11008]⟩

abbrev nBuf : Space → Nat
  | .hbm => 24
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S_, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S11008x4096, .f32⟩
  | .hbm, ⟨11, _⟩ => ⟨S11008x4096, .f32⟩
  | .hbm, ⟨12, _⟩ => ⟨S_, .f32⟩
  | .hbm, ⟨13, _⟩ => ⟨S11008x4096, .f32⟩
  | .hbm, ⟨14, _⟩ => ⟨S11008x4096, .f32⟩
  | .hbm, ⟨15, _⟩ => ⟨S11008x4096, .bf16⟩
  | .hbm, ⟨16, _⟩ => ⟨S1x11008, .f32⟩
  | .hbm, ⟨17, _⟩ => ⟨S8192x4096, .f32⟩
  | .hbm, ⟨18, _⟩ => ⟨S8192x4096, .bf16⟩
  | .hbm, ⟨19, _⟩ => ⟨S8192x4096, .f32⟩
  | .hbm, ⟨20, _⟩ => ⟨S8192x4096, .f32⟩
  | .hbm, ⟨21, _⟩ => ⟨S8192x4096, .bf16⟩
  | .hbm, ⟨22, _⟩ => ⟨S8192x11008, .f32⟩
  | .hbm, ⟨23, _⟩ => ⟨S4x2048x11008, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S11008x4096 : S_.BroadcastsInDim S11008x4096 (![] : Fin 0 → Fin S11008x4096.rank)
  bitsLt_bf16_f32 : FTy.bits .bf16 < FTy.bits .f32
  shapeCasts_S11008_S1x11008 : S11008.ShapeCasts S1x11008
  shapeCasts_S4x2048x4096_S8192x4096 : S4x2048x4096.ShapeCasts S8192x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x11008_S4x2048x11008 : S8192x11008.ShapeCasts S4x2048x11008
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x4096.size a
  hwx0_1 : ∀ i : grid0.Coords, EltTy.bits .bf16 = 32 ∨ (Rect.block (s := S8192x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S11008x4096.size a
  hwx0_2 : ∀ i : grid0.Coords, EltTy.bits .bf16 = 32 ∨ (Rect.unit (s := S11008x4096) (fun a => cc0_transform_2 i a * S1024x1024.size a) (fun a => (Pipeline.Clip.of (cc0_transform_2 i a) (S1024x1024.size a) (S11008x4096.size a)).extent (S1024x1024.size a)) fun a => Pipeline.Clip.inb (Pipeline.Clip.ok_of (hstart0_2 i a))).WholeWords (EltTy.packing .bf16)
  hwxs0_2 : ∀ i : grid0.Coords, EltTy.bits .bf16 = 32 ∨ (Rect.unit (s := S1024x1024) (fun _ => 0) (fun a => (Pipeline.Clip.of (cc0_transform_2 i a) (S1024x1024.size a) (S11008x4096.size a)).extent (S1024x1024.size a)) fun a => (Nat.zero_add _).trans_le (Pipeline.Clip.extent_le (Pipeline.Clip.ok_of (hstart0_2 i a)))).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1024.size a < S1x11008.size a
  hwx0_3 : ∀ i : grid0.Coords, EltTy.bits .f32 = 32 ∨ (Rect.unit (s := S1x11008) (fun a => cc0_transform_3 i a * S1x1024.size a) (fun a => (Pipeline.Clip.of (cc0_transform_3 i a) (S1x1024.size a) (S1x11008.size a)).extent (S1x1024.size a)) fun a => Pipeline.Clip.inb (Pipeline.Clip.ok_of (hstart0_3 i a))).WholeWords (EltTy.packing .f32)
  hwxs0_3 : ∀ i : grid0.Coords, EltTy.bits .f32 = 32 ∨ (Rect.unit (s := S1x1024) (fun _ => 0) (fun a => (Pipeline.Clip.of (cc0_transform_3 i a) (S1x1024.size a) (S1x11008.size a)).extent (S1x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2048x1024.size a < S8192x11008.size a
  hwx0_4 : ∀ i : grid0.Coords, EltTy.bits .f32 = 32 ∨ (Rect.unit (s := S8192x11008) (fun a => cc0_transform_4 i a * S2048x1024.size a) (fun a => (Pipeline.Clip.of (cc0_transform_4 i a) (S2048x1024.size a) (S8192x11008.size a)).extent (S2048x1024.size a)) fun a => Pipeline.Clip.inb (Pipeline.Clip.ok_of (hstart0_4 i a))).WholeWords (EltTy.packing .f32)
  hwxs0_4 : ∀ i : grid0.Coords, EltTy.bits .f32 = 32 ∨ (Rect.unit (s := S2048x1024) (fun _ => 0) (fun a => (Pipeline.Clip.of (cc0_transform_4 i a) (S2048x1024.size a) (S8192x11008.size a)).extent (S2048x1024.size a)) fun a => (Nat.zero_add _).trans_le (Pipeline.Clip.extent_le (Pipeline.Clip.ok_of (hstart0_4 i a)))).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v7) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v4) S1024x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v5) S1x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v11) S2048x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S4x2048x11008 : Shape := ⟨3, ![4, 2048, 11008]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S_, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S11008x4096, .f32⟩
  | .hbm, ⟨11, _⟩ => ⟨S11008x4096, .f32⟩
  | .hbm, ⟨12, _⟩ => ⟨S_, .f32⟩
  | .hbm, ⟨13, _⟩ => ⟨S11008x4096, .f32⟩
  | .hbm, ⟨14, _⟩ => ⟨S11008x4096, .f32⟩
  | .hbm, ⟨15, _⟩ => ⟨S11008x1, .f32⟩
  | .hbm, ⟨16, _⟩ => ⟨S11008x4096, .f32⟩
  | .hbm, ⟨17, _⟩ => ⟨S11008x4096, .f32⟩
  | .hbm, ⟨18, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.BitsConds.lean ====
import proofs.«127360_j47794396070042_2_alg».proof.Proof.Gen.Kernel.Frame
import proofs.«127360_j47794396070042_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first conditional: the point is the first along the feature-block axis (the accumulator is reset). -/
abbrev condFirst (i : grid0.Coords) : Prop :=
  (Scalar.cmpi .ne (Scalar.extui (Scalar.cmpi .eq (BitVec.ofNat 32 (i 2).val) 0#32)) 0#32) = 1#1
/-- Its second: the point is the last along that axis (the scaled accumulator is stored to the result block). -/
abbrev condLast (i : grid0.Coords) : Prop := k0_cond2 i = 1#1

/-- Over the grid the first holds exactly at the points ≡ 0 (mod 4), -/
theorem condFirst_iff : ∀ t : Fin cfg0.N, condFirst (grid0.coords t) ↔ t.val % 4 = 0 :=
  (by decide +kernel : ∀ t : Fin grid0.N, condFirst (grid0.coords t) ↔ t.val % 4 = 0)
/-- and the second exactly at the points ≡ 3 (mod 4). -/
theorem condLast_iff : ∀ t : Fin cfg0.N, condLast (grid0.coords t) ↔ t.val % 4 = 3 :=
  (by decide +kernel : ∀ t : Fin grid0.N, condLast (grid0.coords t) ↔ t.val % 4 = 3)

end Cert.Kernel.Body

end
-- ==== Proof.BitsRunA.lean ====
import proofs.«127360_j47794396070042_2_alg».proof.Proof.Gen.Kernel.Frame
import proofs.«127360_j47794396070042_2_alg».proof.Proof.Gen.Kernel.Skeleton
import proofs.«127360_j47794396070042_2_alg».proof.Proof.BitsConds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point that is first and not last along the feature-block axis: the accumulator, whatever it held, is reset and takes the two products; every other buffer is left as found. The pieces the accumulator ends with are found by running the body. -/
noncomputable def runA (c : Dev nD) (i : grid0.Coords)
    (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : condFirst i) (hc1 : ¬condLast i) (x3 : Vec F S2048x1024 .bf16) (x4 : Vec F S2048x1024 .bf16) (x5 : Vec F S1024x1024 .bf16) (x6 : Vec F S1x1024 .f32) (x7 : Vec F S2048x1024 .f32) :
    { LS : List (View.Piece (Elt F) S2048x1024 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ (∃ d, owns (c : Thread nD τ) arg8 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, fun E K => ?run⟩
  case run =>
    simp only [cc0__matmul_kernel_eq_skeleton]; unfold cc0__matmul_kernel_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Body

end
-- ==== Proof.BitsRunB.lean ====
import proofs.«127360_j47794396070042_2_alg».proof.Proof.Gen.Kernel.Frame
import proofs.«127360_j47794396070042_2_alg».proof.Proof.Gen.Kernel.Skeleton
import proofs.«127360_j47794396070042_2_alg».proof.Proof.BitsRunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point that is neither first nor last along the feature-block axis: the accumulator takes the two products on top of what the point before left; every other buffer is left as found. -/
noncomputable def runB (c : Dev nD) (i : grid0.Coords)
    (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : ¬condLast i) (x3 : Vec F S2048x1024 .bf16) (x4 : Vec F S2048x1024 .bf16) (x5 : Vec F S1024x1024 .bf16) (x6 : Vec F S1x1024 .f32) (x7 : Vec F S2048x1024 .f32) (xs : Vec F S2048x1024 .f32) :
    { LS : List (View.Piece (Elt F) S2048x1024 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare xs
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, fun E K => ?run⟩
  case run =>
    simp only [cc0__matmul_kernel_eq_skeleton]; unfold cc0__matmul_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Body

end
-- ==== Proof.BitsRunC.lean ====
import proofs.«127360_j47794396070042_2_alg».proof.Proof.Gen.Kernel.Frame
import proofs.«127360_j47794396070042_2_alg».proof.Proof.Gen.Kernel.Skeleton
import proofs.«127360_j47794396070042_2_alg».proof.Proof.BitsRunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point that is last and not first along the feature-block axis: the accumulator takes the two products on top of what the point before left, and the result block, whatever it held, takes the accumulator scaled by the scale row; the four input buffers are left as found. -/
noncomputable def runC (c : Dev nD) (i : grid0.Coords)
    (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : condLast i) (x3 : Vec F S2048x1024 .bf16) (x4 : Vec F S2048x1024 .bf16) (x5 : Vec F S1024x1024 .bf16) (x6 : Vec F S1x1024 .f32) (xs : Vec F S2048x1024 .f32) :
    Σ' (L7 : List (View.Piece (Elt F) S2048x1024 .f32)), { LS : List (View.Piece (Elt F) S2048x1024 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ (∃ d, owns (c : Thread nD τ) arg7 fullShare d)
            ∗ owns (c : Thread nD τ) arg8 fullShare xs
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, ?_, fun E K => ?run⟩
  case run =>
    simp only [cc0__matmul_kernel_eq_skeleton]; unfold cc0__matmul_kernel_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg3.eq_unread hf3; obtain rfl := harg4.eq_unread hf4; obtain rfl := harg5.eq_unread hf5; obtain rfl := harg6.eq_unread hf6; obtain rfl := harg8.eq_unread hf8
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.Kernel.Body

end
-- ==== Proof.BitsFrame.lean ====
import proofs.«127360_j47794396070042_2_alg».proof.Proof.BitsRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame of the word-level kernel

The frame says three things of a run of @main: it ends, nothing faults, and the three argument arrays end as
launched. None of the three is an array of a window — they are read only by host operations before the region —, so
the frame needs no description of what any window's staging buffer holds: every window is handed to the body at
some contents and taken back at some contents. The body is then run once per control case (first block of the
contraction axis: the accumulator is reset; an inner block: it is added to; the last block: it is added to and the
scaled accumulator is stored to the result block), each time from buffers at arbitrary contents. -/

/-- Each window's current staging memref at point `t`, as the pipeline passes it to the body, and its wholeness. -/
abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)
/-- The accumulator: a whole scoped buffer of the kernel's own, passed beside the windows. -/
abbrev scM : Memref sig .tc .vmem S2048x1024 .f32 := Memref.whole cc0_scratch0

/-- The region invariant: the accumulator owned at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- A memref's elements after any stores into them are owned at some contents: what the stores wrote is not named. -/
theorem owns_of_stored (c : Dev nD) {sh : Shape} {e : EltTy} (M : Memref sig .tc .vmem sh e) (L : List (View.Piece (Elt F) sh e)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  iexists _
  iapply (owns_intro (c : Thread nD τ) M fullShare _)
  iexact H

/-! ## The proof data: nothing named -/

/-- The proof data on core `c`: the arrays as the region finds them; what the body leaves in a staging buffer is not
    named (every window is forgotten, so the value here is never read); the invariant is the same before every point;
    full shares; nothing owed. -/
def dats (_ : Fin 1) (c : Dev nD) : Dat τ (Elt F) Unit ℕ (UR sig nD τ) ℕ cfg0 c where
  A w := V m c (Pipeline.arrRef spec0 w)
  after w t := fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

/-! ## The body obligation at a generic point -/

/-- What the body is called with at point `t`: the invariant, what the core owes (nothing), and each window's current
    staging buffer at some contents. -/
def bodyPre (c : Dev nD) (t : Fin cfg0.N) : sProp 𝕄 :=
  iprop((dats m 0 c).Φ t.castSucc ∗ (dats m 0 c).owesAt () t.castSucc
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X)
    ∗ (∃ X, owns (c : Thread nD τ) (ms4 t) fullShare X))

/-- What it returns: the same, at the next point. -/
def bodyPost (c : Dev nD) (t : Fin cfg0.N) : sProp 𝕄 :=
  iprop((dats m 0 c).Φ t.succ ∗ (dats m 0 c).owesAt () t.succ
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X)
    ∗ (∃ X, owns (c : Thread nD τ) (ms4 t) fullShare X))

set_option maxHeartbeats 1600000 in
/-- The body at any point. The point's position along the contraction axis (its index mod 4) selects the control case;
    in each the whole-body run applies from the buffers at whatever they hold, and what it leaves in the accumulator
    and in the result block is owned at some contents again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  by_cases h0 : t.val % 4 = 0
  · by_cases h1 : t.val % 4 = 3
    · exfalso; omega
    · -- first block: the accumulator is reset, whatever it held
      iintro ⟨⟨HS, Hg⟩, Ho, ⟨%x0, H0⟩, ⟨%x1, H1⟩, ⟨%x2, H2⟩, ⟨%x3, H3⟩, ⟨%x4, H4⟩⟩
      iapply ((runA c (grid0.coords t) _ _ _ _ _ _ _ _ _ _ _ _ ((condFirst_iff t).mpr h0) (fun h => h1 ((condLast_iff t).mp h)) x0 x1 x2 x3 x4).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iapply (owns_of_stored c _ _); iexact HS
        iexact Hg
      isplitl [Ho]; · iexact Ho
      isplitl [H0]; · iexists _; iexact H0
      isplitl [H1]; · iexists _; iexact H1
      isplitl [H2]; · iexists _; iexact H2
      isplitl [H3]; · iexists _; iexact H3
      iexists _; iexact H4
  · by_cases h1 : t.val % 4 = 3
    · -- last block: the accumulator is added to, and the result block, whatever it held, is stored
      iintro ⟨⟨⟨%xs, HS⟩, Hg⟩, Ho, ⟨%x0, H0⟩, ⟨%x1, H1⟩, ⟨%x2, H2⟩, ⟨%x3, H3⟩, H4⟩
      iapply ((runC c (grid0.coords t) _ _ _ _ _ _ _ _ _ _ _ _ (fun h => h0 ((condFirst_iff t).mp h)) ((condLast_iff t).mpr h1) x0 x1 x2 x3 xs).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iapply (owns_of_stored c _ _); iexact HS
        iexact Hg
      isplitl [Ho]; · iexact Ho
      isplitl [H0]; · iexists _; iexact H0
      isplitl [H1]; · iexists _; iexact H1
      isplitl [H2]; · iexists _; iexact H2
      isplitl [H3]; · iexists _; iexact H3
      iapply (owns_of_stored c _ _); iexact H4
    · -- an inner block: the accumulator is added to
      iintro ⟨⟨⟨%xs, HS⟩, Hg⟩, Ho, ⟨%x0, H0⟩, ⟨%x1, H1⟩, ⟨%x2, H2⟩, ⟨%x3, H3⟩, ⟨%x4, H4⟩⟩
      iapply ((runB c (grid0.coords t) _ _ _ _ _ _ _ _ _ _ _ _ (fun h => h0 ((condFirst_iff t).mp h)) (fun h => h1 ((condLast_iff t).mp h)) x0 x1 x2 x3 x4 xs).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iapply (owns_of_stored c _ _); iexact HS
        iexact Hg
      isplitl [Ho]; · iexact Ho
      isplitl [H0]; · iexists _; iexact H0
      isplitl [H1]; · iexists _; iexact H1
      isplitl [H2]; · iexists _; iexact H2
      isplitl [H3]; · iexists _; iexact H3
      iexists _; iexact H4

/-- The library's body obligation with every window forgotten, at every point. -/
theorem body_obligation (c : Dev nD) :
    BodyObligationLoose (dats (F := F) m 0 c) (defs₀ (F := F)) Variants.none () Set.univ (fun _ => true) := fun t => by
  -- both conjunctions over the windows are the same one (every window's arm is the forgotten one): one rewrite opens both
  rw [bigSep_W0]
  exact sound_body m c t

/-! ## The run and the frame -/

/-- The one buffer the host line after the region writes: the reshaped result. Nothing is stated of it. -/
def T0 : Finset (Ref sig .tc) := {main_v12}

/-- The line after the region writes only that buffer. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  obtain rfl : b = main_v12 := Proc.devRef_injective (τ := τ) _ hb
  exact Finset.mem_singleton_self _

set_option backward.isDefEq.respectTransparency.types false in
/-- From any memory with zero counters, every weakly fair execution of @main on the TensorCores terminates without a
    fault, and every unscoped buffer that is no window's array and is not the reshaped result ends at what it held when
    the region was entered. -/
theorem run_main : θ_run defs (onTc (τ := τ) (main (F := F))) (s₀ m ρ)
    (Pipeline.RDat.FramePostR (cfgs 0) (fun c => (dats m 0 c).toRForget fun _ => true) T0 (V m)) :=
  Pipeline.RDat.θ_run_frame_around_T cfgs (0 : Fin 1) launch0 defs₀ Variants.none
    (fun c => (dats m 0 c).toRForget fun _ => true) T0 m ρ main
    (hbody := fun c => (body_obligation m c).toRForget)
    (hshare := fun c => ((dats m 0 c).toRForget fun _ => true).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- THE FRAME. The three argument arrays are unscoped, are no window's array and are not the reshaped result, so each
    ends at what it held when the region was entered; and no host operation before the region writes them, so that is
    what was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c)⟩)
    (run_main m ρ)

end Cert.Kernel.Body

end
-- ==== Proof.Spec.lean ====
/-
  The two programs' results as closed functions of the three argument arrays, over the extended reals.

  A weight is quantized to a ternary value: divided by one half, rounded to the nearest integer (ties to even),
  and clipped to [-1, 1] — `tern`. The linear layer then contracts the 4096 input features against the quantized
  weight row, with the output channel's scale either inside the sum (the reference) or applied once to the finished
  sum (the kernel). The kernel also walks the 4096 features in four blocks of 1024 and, in each block, adds a second
  product whose left factor is the input minus itself — zero for every finite input.
-/
import Idealize.ShloMosaic.PureOps.Ideal
import Idealize.ShloMosaic.Lib.ValueIdx

noncomputable section

open scoped BigOperators

namespace Cert.Bridge

open Idealize.ShloMosaic Idealize.ShloMosaic.ValueIdx

/-- The input, [batch, position, feature]. -/
abbrev SX : Shape := ⟨3, ![4, 2048, 4096]⟩
/-- The weight, [channel, feature]. -/
abbrev SW : Shape := ⟨2, ![11008, 4096]⟩
/-- The per-channel scale. -/
abbrev SS : Shape := ⟨1, ![11008]⟩
/-- The result, [batch, position, channel]. -/
abbrev SO : Shape := ⟨3, ![4, 2048, 11008]⟩

/-- One weight quantized: `min 1 (max (-1) (round (w / (1/2))))`, the three constants kept as their binary words. -/
def tern (w : EReal) : EReal :=
  min (Ideal.ofBits .f32 0x3F800000#32)
    (max (Ideal.ofBits .f32 0xBF800000#32)
      (Ideal.liftRound Ideal.roundHalfEven (Ideal.div w (Ideal.ofBits .f32 0x3F000000#32))))

/-- Feature `1024 * kb + d`: the `d`-th feature of the `kb`-th block of 1024. -/
def kidx (kb : Fin 4) (d : Fin 1024) : Fin 4096 := ⟨1024 * kb.val + d.val, by omega⟩

/-- The reference: the scale multiplies each quantized weight before the contraction. -/
def refOut (x : SX.Idx → EReal) (w : SW.Idx → EReal) (s : SS.Idx → EReal) : SO.Idx → EReal :=
  fun i => ∑ k : Fin 4096, x (ix3 (i 0) (i 1) k) * (tern (w (ix2 (i 2) k)) * s (ix1 (i 2)))

/-- One block's contribution to the kernel's accumulator: the product proper, plus the product with the input's
    difference from itself. -/
def blockTerm (x : SX.Idx → EReal) (w : SW.Idx → EReal) (i : SO.Idx) (kb : Fin 4) : EReal :=
  (∑ d : Fin 1024, x (ix3 (i 0) (i 1) (kidx kb d)) * tern (w (ix2 (i 2) (kidx kb d))))
    + ∑ d : Fin 1024, (x (ix3 (i 0) (i 1) (kidx kb d)) - x (ix3 (i 0) (i 1) (kidx kb d))) * tern (w (ix2 (i 2) (kidx kb d)))

/-- The kernel: four blocks accumulated, the scale applied to the finished sum. -/
def kerOut (x : SX.Idx → EReal) (w : SW.Idx → EReal) (s : SS.Idx → EReal) : SO.Idx → EReal :=
  fun i => (∑ kb : Fin 4, blockTerm x w i kb) * s (ix1 (i 2))

end Cert.Bridge

end
-- ==== Proof.Algebra.lean ====
/-
  The kernel's arrangement of the quantized linear layer equals the reference's, for finite inputs and scales.

  Every quantized weight is a real number in [-1, 1], whatever the weight (the clip absorbs the infinities). With
  the input real as well, the input minus itself is zero, so each block's second product vanishes; the four blocks of
  1024 features re-index onto the 4096 features; and the scale, a real, distributes over the finite sum of reals.
-/
import proofs.«127360_j47794396070042_2_alg».proof.Proof.Spec
import Mathlib.Algebra.BigOperators.Fin
import Mathlib.Data.EReal.Operations

noncomputable section

open scoped BigOperators

namespace Cert.Bridge

open Idealize.ShloMosaic Idealize.ShloMosaic.ValueIdx

/-- The word 0x3F800000 is the real number one. -/
theorem word_one : Ideal.ofBits .f32 0x3F800000#32 = ((1 : ℝ) : EReal) := by
  simp [Ideal.ofBits, Ideal.ieee, -EReal.coe_mul]; norm_num

/-- The word 0xBF800000 is the real number minus one. -/
theorem word_neg_one : Ideal.ofBits .f32 0xBF800000#32 = ((-1 : ℝ) : EReal) := by
  simp [Ideal.ofBits, Ideal.ieee, -EReal.coe_mul]; norm_num

/-- Clipping any extended real to [-1, 1] gives a real number. -/
theorem clip_real (y : EReal) : ∃ r : ℝ, min ((1 : ℝ) : EReal) (max ((-1 : ℝ) : EReal) y) = (r : EReal) := by
  induction y using EReal.rec with
  | bot =>
    exact ⟨-1, by rw [max_eq_left bot_le]; exact min_eq_right (EReal.coe_le_coe_iff.mpr (by norm_num))⟩
  | top => exact ⟨1, by rw [max_eq_right le_top, min_eq_left le_top]⟩
  | coe r =>
    exact ⟨min 1 (max (-1) r), by
      rw [EReal.coe_strictMono.monotone.map_min, EReal.coe_strictMono.monotone.map_max]⟩

/-- A quantized weight is a real number, for every weight. -/
theorem tern_real (w : EReal) : ∃ r : ℝ, tern w = (r : EReal) := by
  unfold tern
  rw [word_one, word_neg_one]
  exact clip_real _

/-- The coercion of the reals into the extended reals commutes with finite sums. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Block `kb`, offset `d` ↦ feature `1024 * kb + d` is a bijection of the 4 × 1024 pairs onto the 4096 features. -/
def blockEquiv : Fin 4 × Fin 1024 ≃ Fin 4096 where
  toFun p := kidx p.1 p.2
  invFun k := (⟨k.val / 1024, by have := k.isLt; omega⟩, ⟨k.val % 1024, Nat.mod_lt _ (by norm_num)⟩)
  left_inv := by
    rintro ⟨a, b⟩
    refine Prod.ext (Fin.ext ?_) (Fin.ext ?_)
    · show (1024 * a.val + b.val) / 1024 = a.val
      have := b.isLt; omega
    · show (1024 * a.val + b.val) % 1024 = b.val
      have := b.isLt; omega
  right_inv := by
    intro k
    refine Fin.ext ?_
    show 1024 * (k.val / 1024) + k.val % 1024 = k.val
    omega

/-- A sum over the four blocks of 1024 features is the sum over the 4096 features. -/
theorem sum_blocks {M : Type*} [AddCommMonoid M] (g : Fin 4096 → M) :
    ∑ kb : Fin 4, ∑ d : Fin 1024, g (kidx kb d) = ∑ k : Fin 4096, g k := by
  rw [← Fintype.sum_prod_type' (fun kb d => g (kidx kb d))]
  exact Equiv.sum_comp blockEquiv g

/-- For finite inputs and scales the kernel's result is the reference's. -/
theorem kerOut_eq_refOut (x : SX.Idx → EReal) (w : SW.Idx → EReal) (s : SS.Idx → EReal)
    (hx : ∀ i, ∃ r : ℝ, x i = (r : EReal)) (hs : ∀ i, ∃ r : ℝ, s i = (r : EReal)) :
    kerOut x w s = refOut x w s := by
  choose xr hxr using hx
  choose sr hsr using hs
  choose tr htr using tern_real
  funext i
  have hblock : ∀ kb : Fin 4, blockTerm x w i kb
      = ((∑ d : Fin 1024, xr (ix3 (i 0) (i 1) (kidx kb d)) * tr (w (ix2 (i 2) (kidx kb d))) : ℝ) : EReal) := by
    intro kb
    unfold blockTerm
    simp only [hxr, htr, ← EReal.coe_sub, sub_self, EReal.coe_zero, zero_mul, Finset.sum_const_zero, add_zero,
      ← EReal.coe_mul]
    rw [coe_sum]
  show (∑ kb : Fin 4, blockTerm x w i kb) * s (ix1 (i 2))
      = ∑ k : Fin 4096, x (ix3 (i 0) (i 1) k) * (tern (w (ix2 (i 2) k)) * s (ix1 (i 2)))
  simp only [hblock, hxr, htr, hsr, ← EReal.coe_mul, ← coe_sum]
  rw [sum_blocks (fun k => xr (ix3 (i 0) (i 1) k) * tr (w (ix2 (i 2) k))), Finset.sum_mul]
  exact congrArg _ (Finset.sum_congr rfl (fun k _ => mul_assoc _ _ _))

end Cert.Bridge

end
-- ==== Proof.Finite.lean ====
/-
  The precondition read back: when `finite_inputs` answers true, every entry of the three argument arrays is a real
  number.

  The predicate is the conjunction of three `all`s, one per array, of the elementwise comparison |v| < +∞. A
  conjunction of bits that is 1 has both bits 1; a reduction by `and` over every axis that is 1 met only 1s; and an
  extended real whose absolute value is strictly below +∞ is neither infinity.
-/
import proofs.«127360_j47794396070042_2_alg».proof.Pre_finite_inputs
import Idealize.ShloMosaic.PureOps.Ideal
import Idealize.ShloMosaic.Lib.ValueIdx
import Idealize.ShloMosaic.Lib.ReduceAll

noncomputable section

namespace Cert.Bridge

open Idealize.ShloMosaic Cert.Pre_finite_inputs

/-- The scalar shape has one index. -/
instance subsingleton_scalar_idx : Subsingleton S_.Idx := ⟨fun a b => funext fun d => d.elim0⟩

/-- The word 0x7F800000 is +∞. -/
theorem word_top : Ideal.ofBits .f32 0x7F800000#32 = ⊤ := by simp [Ideal.ofBits, Ideal.ieee]

/-- An extended real whose absolute value compares strictly below +∞ is a real number. -/
theorem real_of_abs_lt_top (v : EReal)
    (h : Ideal.cmp .olt (max v (-v)) (Ideal.ofBits .f32 0x7F800000#32) = 1#1) : ∃ r : ℝ, v = (r : EReal) := by
  rw [word_top] at h
  induction v using EReal.rec with
  | bot => simp [Ideal.cmp] at h
  | top => simp [Ideal.cmp] at h
  | coe r => exact ⟨r, rfl⟩

/-- Under `finite_inputs` every entry of the input, of the weight and of the scale is a real number. -/
theorem finite_of_pre [Cert.Pre_finite_inputs.Facts] (x : FVec Ideal S4x2048x4096 .f32)
    (w : FVec Ideal S11008x4096 .f32) (s : FVec Ideal S11008 .f32)
    (h : Cert.Pre_finite_inputs.fn (F := Ideal) x w s = fun _ => 1#1) :
    (∀ i, ∃ r : ℝ, x i = (r : EReal)) ∧ (∀ i, ∃ r : ℝ, w i = (r : EReal)) ∧ (∀ i, ∃ r : ℝ, s i = (r : EReal)) := by
  have h0 := congrFun h ValueIdx.ix0
  dsimp only [Cert.Pre_finite_inputs.fn] at h0
  obtain ⟨h8, h12⟩ := IntOp.andi_eq_one.1 h0
  obtain ⟨h3, h7⟩ := IntOp.andi_eq_one.1 h8
  refine ⟨fun i => ?_, fun i => ?_, fun i => ?_⟩
  · exact real_of_abs_lt_top (x i) (Host.reduce_andi_all _ _ _ _ _ h3 i)
  · exact real_of_abs_lt_top (w i) (Host.reduce_andi_all _ _ _ _ _ h7 i)
  · exact real_of_abs_lt_top (s i) (Host.reduce_andi_all _ _ _ _ _ h12 i)

end Cert.Bridge

end
-- ==== Proof.RefValue.lean ====
/-
  The reference program's result as the closed function `Cert.Bridge.refOut` of its three argument arrays.

  Read one operation at a time, the reference divides the weight by one half, rounds to the nearest even integer,
  clips to [-1, 1] (a maximum against -1, then a minimum against 1), multiplies by the scale broadcast along the
  features, and contracts the input's features against the result: element (b, s, o) is the sum over the 4096
  features k of x[b, s, k] times (the quantized w[o, k] times scale[o]).
-/
import proofs.«127360_j47794396070042_2_alg».proof.Proof.Spec
import proofs.«127360_j47794396070042_2_alg».proof.Proof.Gen.ReferenceIdeal.Read
import Idealize.ShloMosaic.Lib.ValueIdx
import Idealize.ShloMosaic.PureOps.Ideal.Laws

noncomputable section

open scoped BigOperators

namespace Cert.Bridge.Ref

open Cert.ReferenceIdeal Cert.ReferenceIdeal.Gen Cert.ReferenceIdeal.Read
open Idealize.ShloMosaic Idealize.ShloMosaic.ValueIdx Idealize.ShloMosaic.TcCoe Idealize.SL.Sem

/-- The contraction reads the input at (batch, position, feature k). -/
theorem lidx_eq (i : S4x2048x11008.Idx) (k : Fin 4096) : lidx_main_v7 i k = (ix3 (i 0) (i 1) k : SX.Idx) :=
  funext fun a => Fin.ext (by match a with | ⟨0, _⟩ => rfl | ⟨1, _⟩ => rfl | ⟨2, _⟩ => rfl)

/-- The contraction reads the scaled weight at (channel, feature k). -/
theorem ridx_eq (i : S4x2048x11008.Idx) (k : Fin 4096) : ridx_main_v7 i k = (ix2 (i 2) k : SW.Idx) :=
  funext fun a => Fin.ext (by match a with | ⟨0, _⟩ => rfl | ⟨1, _⟩ => rfl)

/-- The scale broadcast along the features reads the scale at the channel. -/
theorem sidx_eq (i : S4x2048x11008.Idx) (k : Fin 4096) :
    idx_main_v4 (idx_main_v5 (ridx_main_v7 i k)) = (ix1 (i 2) : SS.Idx) :=
  funext fun a => Fin.ext (by match a with | ⟨0, _⟩ => rfl)

/-- The reference's last stage, as a function of the three arguments, is `refOut`. -/
theorem stage_eq (x0 : SX.Idx → EReal) (x1 : SW.Idx → EReal) (x2 : SS.Idx → EReal) :
    val_main_v7 (F := Ideal) x0 x1 x2 = refOut x0 x1 x2 := by
  funext i
  rw [val_main_v7_apply]
  unfold refOut
  refine Finset.sum_congr rfl fun k _ => ?_
  rw [val_main_v6_apply, val_main_v3_apply, val_main_v5_apply, val_main_v4_apply, val_main_call1_v4_apply,
    val_main_call1_v3_apply, val_main_cst_1_apply, val_main_call1_v2_apply, val_main_call1_v1_apply,
    val_main_call1_v0_apply, val_main_cst_0_apply, val_main_v2_apply, val_main_v1_apply, val_main_v0_apply,
    val_main_cst_apply, sidx_eq]
  simp only [Ideal.mulf_def, Ideal.minimumf_def, Ideal.maximumf_def, Ideal.hostUnary_roundeven_def, Ideal.hostDivf_def,
    Ideal.ofBits_def, lidx_eq, ridx_eq]
  rfl

/-- Every weakly fair execution of the reference terminates with its result at `refOut` of the arguments and the
    arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev nD,
        r.2.mem ((c.tc : Thread nD τ).loc main_v7)
          = Cert.Bridge.refOut (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run Cert.ReferenceIdeal.defs _ _).mono
    (fun _ h c => ⟨(h c).1.trans ((val_main_v7_eq _ _ _).trans (stage_eq _ _ _)), (h c).2⟩)
    (Cert.ReferenceIdeal.Value.run (F := Ideal) m ρ)

end Cert.Bridge.Ref

end
-- ==== Proof.IdealHost.lean ====
/-
  The kernel program's host lines before its region, read at one index of each array the region takes.

  The input [4, 2048, 4096] is laid out as 8192 rows of 4096 features: row r is (batch r / 2048, position r % 2048).
  The region's first operand is that array; its second is the array minus itself, taken elementwise; its third
  is the weight quantized — divided by one half, rounded to the nearest even integer, clipped to [-1, 1]; its fourth is
  the scale as one row. Changes of float format are the identity on the extended reals. After the region its output,
  8192 rows of 11008 channels, is laid out as [4, 2048, 11008]: entry (b, q, o) is row 2048 * b + q, channel o.
-/
import proofs.«127360_j47794396070042_2_alg».proof.Proof.Gen.KernelIdeal.Frame
import proofs.«127360_j47794396070042_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (c : Dev nD)

/-- Row r of the 8192-row layout is (batch r / 2048, position r % 2048) of the input. -/
abbrev xIdx (r : Fin 8192) (k : Fin 4096) : S4x2048x4096.Idx :=
  ix3 (⟨r.val / 2048, by have := r.isLt; omega⟩ : Fin 4) (⟨r.val % 2048, Nat.mod_lt _ (by norm_num)⟩ : Fin 2048) k

/-- The two layouts name the same row-major position. -/
theorem xIdx_pos (r : Fin 8192) (k : Fin 4096) :
    (S4x2048x4096.rowMajor (xIdx r k)).val = (S8192x4096.rowMajor (ix2 r k : S8192x4096.Idx)).val := by
  rw [Shape.rowMajor_val_three, Shape.rowMajor_val_two]
  show (r.val / 2048 * 2048 + r.val % 2048) * 4096 + k.val = r.val * 4096 + k.val
  omega

/-- An array of the input's shape, laid out as 8192 rows, reads at (r, k) its entry (r / 2048, r % 2048, k). -/
theorem rows_apply {α : Type} (x : S4x2048x4096.Idx → α) (h : S4x2048x4096.ShapeCasts S8192x4096) (r : Fin 8192)
    (k : Fin 4096) : shapeCast S8192x4096 x h (ix2 r k : S8192x4096.Idx) = x (xIdx r k) :=
  shapeCast_apply x h _ _ (xIdx_pos r k)

/-- Such an array minus itself, both laid out as 8192 rows, reads at (r, k) that entry minus itself. -/
theorem rows_sub_apply (x : S4x2048x4096.Idx → EReal) (h h' : S4x2048x4096.ShapeCasts S8192x4096) (r : Fin 8192)
    (k : Fin 4096) :
    shapeCast S8192x4096 x h (ix2 r k : S8192x4096.Idx) - shapeCast S8192x4096 x h' (ix2 r k : S8192x4096.Idx)
      = x (xIdx r k) - x (xIdx r k) := by
  rw [rows_apply]

/-- The input at row r of the 8192-row layout, feature k, as an extended real. -/
abbrev xAt (r : Fin 8192) (k : Fin 4096) : EReal := m ((c : Thread nD τ).loc main_arg0) (xIdx r k)

/-- Row 2048 * b + q of the 8192-row layout is (batch b, position q). -/
theorem xIdx_row (b : Fin 4) (q : Fin 2048) (k : Fin 4096) :
    xIdx (⟨2048 * b.val + q.val, by have := b.isLt; have := q.isLt; omega⟩ : Fin 8192) k
      = (ix3 b q k : S4x2048x4096.Idx) :=
  funext fun a => Fin.ext (by
    match a with
    | ⟨0, _⟩ => show (2048 * b.val + q.val) / 2048 = b.val; have := q.isLt; omega
    | ⟨1, _⟩ => show (2048 * b.val + q.val) % 2048 = q.val; have := q.isLt; omega
    | ⟨2, _⟩ => rfl)

/-- The input at row 2048 * b + q, feature k, is the input at (b, q, k). -/
theorem xAt_row (b : Fin 4) (q : Fin 2048) (k : Fin 4096) :
    xAt m c (⟨2048 * b.val + q.val, by have := b.isLt; have := q.isLt; omega⟩ : Fin 8192) k
      = m ((c : Thread nD τ).loc main_arg0) (ix3 b q k : S4x2048x4096.Idx) :=
  congrArg (m ((c : Thread nD τ).loc main_arg0)) (xIdx_row b q k)

/-- The region's first operand at (r, k) is the input at (r / 2048, r % 2048, k). -/
theorem V_xhi (r : Fin 8192) (k : Fin 4096) : V m c main_v7 (ix2 r k : S8192x4096.Idx) = xAt m c r k := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  exact rows_apply (m ((c : Thread nD τ).loc main_arg0) : S4x2048x4096.Idx → EReal) _ r k

/-- The region's second operand at (r, k) is that input entry minus itself. -/
theorem V_xlo (r : Fin 8192) (k : Fin 4096) :
    V m c main_v10 (ix2 r k : S8192x4096.Idx)
      = xAt m c r k - xAt m c r k := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  exact rows_sub_apply (m ((c : Thread nD τ).loc main_arg0)) _ _ r k

/-- The region's third operand at (o, k) is the weight there, quantized. -/
theorem V_wq (o : Fin 11008) (k : Fin 4096) :
    V m c main_v4 (ix2 o k : S11008x4096.Idx)
      = Cert.Bridge.tern (m ((c : Thread nD τ).loc main_arg1) (ix2 o k : S11008x4096.Idx)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The region's fourth operand, the scale as one row, at (0, o) is the scale at o. -/
theorem V_scale (o : Fin 11008) :
    V m c main_v5 (ix2 (0 : Fin 1) o : S1x11008.Idx) = m ((c : Thread nD τ).loc main_arg2) (ix1 o : S11008.Idx) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  show shapeCast S1x11008 (m ((c : Thread nD τ).loc main_arg2) : S11008.Idx → EReal) _ (ix2 (0 : Fin 1) o : S1x11008.Idx) = _
  refine shapeCast_apply _ _ _ _ ?_
  show (S11008.rowMajor (ix1 o : S11008.Idx)).val = (S1x11008.rowMajor (ix2 (0 : Fin 1) o : S1x11008.Idx)).val
  rw [Shape.rowMajor_val_one, Shape.rowMajor_val_two]
  show o.val = 0 * 11008 + o.val
  omega

/-- Row 2048 * b + q of the 8192-row result is (batch b, position q) of the result. -/
theorem out_pos (b : Fin 4) (q : Fin 2048) (o : Fin 11008) :
    (S8192x11008.rowMajor (ix2 (⟨2048 * b.val + q.val, by have := b.isLt; have := q.isLt; omega⟩ : Fin 8192) o : S8192x11008.Idx)).val
      = (S4x2048x11008.rowMajor (ix3 b q o : S4x2048x11008.Idx)).val := by
  rw [Shape.rowMajor_val_two, Shape.rowMajor_val_three]
  show (2048 * b.val + q.val) * 11008 + o.val = (b.val * 2048 + q.val) * 11008 + o.val
  omega

/-- The program's result at (b, q, o) is the region's output array at row 2048 * b + q, channel o. -/
theorem tail_read (dats : (p : Fin 1) → (c : Dev nD) → Pipeline.Dat τ (Elt Ideal) Unit ℕ (UR sig nD τ) ℕ (cfgs p) c)
    (G : S8192x11008.Idx → EReal) (hG : (dats 0 c).arrAt 4 cfg0.N = G) (b : Fin 4) (q : Fin 2048) (o : Fin 11008) :
    Pipeline.afterTail₀ cfgs dats 0 (V0 m) [hostOps1] c main_v12 (ix3 b q o : S4x2048x11008.Idx)
      = G (ix2 (⟨2048 * b.val + q.val, by have := b.isLt; have := q.isLt; omega⟩ : Fin 8192) o) := by
  have hA : Pipeline.withArrays (cfgs 0).spec c (V0 m c) (fun w => (dats 0 c).arrAt w (cfgs 0).N)
      (Proc.devRef .tc main_v11) = G :=
    (Pipeline.withArrays_arr spec0 launch0.win.arr_inj c (V0 m c) (fun w => (dats 0 c).arrAt w cfg0.N) 4).trans hG
  unfold Pipeline.afterTail₀
  simp only [Gen.hostOps1, List.flatten_cons, List.flatten_nil, List.append_nil]
  after_results
  refine (shapeCast_apply _ _ _ (ix2 (⟨2048 * b.val + q.val, by have := b.isLt; have := q.isLt; omega⟩ : Fin 8192) o : S8192x11008.Idx) (out_pos b q o)).trans ?_
  exact congrFun hA _

end Cert.KernelIdeal.Host

end
-- ==== Proof.IdealSpec.lean ====
/-
  The kernel's result array, and its accumulator on the way there, as closed functions of the four arrays the
  tiled product reads (the two activation operands, the quantized weight, the scale row), in GLOBAL coordinates.

  Block coordinates are turned into array coordinates by `rowG` (row block I, row r), `colG` (channel block J, channel c)
  and `featN` (feature block kb, feature d), each clamped at the array's last index so that it is total; where the
  clamp bites (a channel past 11008 in the last, overhanging channel block) nothing is claimed.
-/
import proofs.«127360_j47794396070042_2_alg».proof.Proof.Gen.KernelIdeal.Frame
import Idealize.ShloMosaic.Lib.ValueIdx

noncomputable section

open scoped BigOperators

namespace Cert.KernelIdeal.Body

open Cert.KernelIdeal Cert.KernelIdeal.Gen
open Idealize.ShloMosaic Idealize.ShloMosaic.ValueIdx Idealize.SL.Sem

variable (m : (ℓ : Loc nD τ sig) → Buf (Elt Ideal) ℓ) (c : Dev nD)

/-- Feature `1024 * kb + d`. -/
def featN (kb : ℕ) (d : Fin 1024) : Fin 4096 := ⟨min (1024 * kb + d.val) 4095, by omega⟩
/-- Row `2048 * I + r`. -/
def rowG (I : ℕ) (r : Fin 2048) : Fin 8192 := ⟨min (2048 * I + r.val) 8191, by omega⟩
/-- Channel `1024 * J + cc`. -/
def colG (J : ℕ) (cc : Fin 1024) : Fin 11008 := ⟨min (1024 * J + cc.val) 11007, by omega⟩

/-- The first activation operand (the input rounded to the narrow format: at the ideal values, the input), -/
abbrev xhi : S8192x4096.Idx → EReal := V m c main_v7
/-- the second (the input minus that), -/
abbrev xlo : S8192x4096.Idx → EReal := V m c main_v10
/-- the quantized weight, -/
abbrev wq : S11008x4096.Idx → EReal := V m c main_v4
/-- and the scale as one row. -/
abbrev srow : S1x11008.Idx → EReal := V m c main_v5

/-- Feature block `kb`'s contribution to entry (R, O): the two inner products over its 1024 features. -/
def termG (R : Fin 8192) (O : Fin 11008) (kb : ℕ) : EReal :=
  (∑ d : Fin 1024, xhi m c (ix2 R (featN kb d)) * wq m c (ix2 O (featN kb d)))
    + ∑ d : Fin 1024, xlo m c (ix2 R (featN kb d)) * wq m c (ix2 O (featN kb d))

/-- The accumulator's entry (r, cc) in row block I, channel block J after `n` feature blocks. -/
def accG (I J n : ℕ) (r : Fin 2048) (cc : Fin 1024) : EReal :=
  ∑ kb ∈ Finset.range n, termG m c (rowG I r) (colG J cc) kb

/-- The result array [8192, 11008]: four feature blocks accumulated, then the channel's scale. -/
def G11 : S8192x11008.Idx → EReal :=
  fun i => (∑ kb ∈ Finset.range 4, termG m c (i 0) (i 1) kb) * srow m c (ix2 (0 : Fin 1) (i 1))

end Cert.KernelIdeal.Body

end
-- ==== Proof.IdealResult.lean ====
/-
  The kernel program's result as the closed function `Cert.Bridge.kerOut` of its three argument arrays, given that
  its region leaves its output array at the tiled product of the four arrays it reads.

  Entry (b, q, o) of the result is row 2048 * b + q, channel o of that array. There the row is (batch b, position q)
  of the input; feature d of block kb is feature 1024 * kb + d (below 4096, so no clamp bites); the first operand is
  the input, the second the input minus itself, the third the quantized weight, the fourth the scale: block by block
  this is `blockTerm`, and the whole `kerOut`.
-/
import proofs.«127360_j47794396070042_2_alg».proof.Proof.IdealHost
import proofs.«127360_j47794396070042_2_alg».proof.Proof.IdealSpec
import proofs.«127360_j47794396070042_2_alg».proof.Proof.Spec

noncomputable section

open scoped BigOperators

namespace Cert.KernelIdeal.Host

open Cert.KernelIdeal Cert.KernelIdeal.Gen Cert.KernelIdeal.Body Cert.Bridge
open Idealize.ShloMosaic Idealize.ShloMosaic.TcCoe Idealize.ShloMosaic.ValueIdx Idealize.ShloMosaic.StableHlo
open Idealize.SL.Sem

variable (m : (ℓ : Loc nD τ sig) → Buf (Elt Ideal) ℓ) (c : Dev nD)

/-- For a block below 4, feature d of block kb is feature 1024 * kb + d: the clamp is idle. -/
theorem featN_eq (kb : Fin 4) (d : Fin 1024) : featN kb.val d = kidx kb d :=
  Fin.ext (by
    show min (1024 * kb.val + d.val) 4095 = 1024 * kb.val + d.val
    have := kb.isLt; have := d.isLt; omega)

/-- One feature block's contribution at row 2048 * b + q, channel o, is `blockTerm` at (b, q, o). -/
theorem termG_row (b : Fin 4) (q : Fin 2048) (o : Fin 11008) (kb : Fin 4) :
    termG m c (⟨2048 * b.val + q.val, by have := b.isLt; have := q.isLt; omega⟩ : Fin 8192) o kb.val
      = blockTerm (m ((c : Thread nD τ).loc main_arg0)) (m ((c : Thread nD τ).loc main_arg1))
          (ix3 b q o : SO.Idx) kb := by
  unfold termG blockTerm
  simp only [featN_eq]
  refine congrArg₂ (fun u v : EReal => u + v) (Finset.sum_congr rfl fun d _ => ?_) (Finset.sum_congr rfl fun d _ => ?_)
  · exact congrArg₂ (fun u v : EReal => u * v) ((V_xhi m c _ _).trans (xAt_row m c b q _)) (V_wq m c o _)
  · exact congrArg₂ (fun u v : EReal => u * v)
      ((V_xlo m c _ _).trans (congrArg₂ (fun u v : EReal => u - v) (xAt_row m c b q _) (xAt_row m c b q _)))
      (V_wq m c o _)

/-- The program's result is `kerOut` of its arguments, once the region's output array is the tiled product. -/
theorem result_eq (dats : (p : Fin 1) → (c : Dev nD) → Pipeline.Dat τ (Elt Ideal) Unit ℕ (UR sig nD τ) ℕ (cfgs p) c)
    (hG : (dats 0 c).arrAt 4 cfg0.N = G11 m c) :
    Pipeline.afterTail₀ cfgs dats 0 (V0 m) [hostOps1] c main_v12
      = kerOut (m ((c : Thread nD τ).loc main_arg0)) (m ((c : Thread nD τ).loc main_arg1))
          (m ((c : Thread nD τ).loc main_arg2)) := by
  refine funext fun (i : S4x2048x11008.Idx) => ?_
  obtain ⟨b, q, o, rfl⟩ : ∃ (b : Fin 4) (q : Fin 2048) (o : Fin 11008), i = (ix3 b q o : S4x2048x11008.Idx) :=
    ⟨i 0, i 1, i 2, eq_ix3 i⟩
  refine (tail_read m c dats (G11 m c) hG b q o).trans ?_
  show (∑ kb ∈ Finset.range 4, termG m c (⟨2048 * b.val + q.val, by have := b.isLt; have := q.isLt; omega⟩ : Fin 8192) o kb)
        * srow m c (ix2 (0 : Fin 1) o : S1x11008.Idx)
      = (∑ kb : Fin 4, blockTerm (m ((c : Thread nD τ).loc main_arg0)) (m ((c : Thread nD τ).loc main_arg1))
          (ix3 b q o : SO.Idx) kb) * (m ((c : Thread nD τ).loc main_arg2) (ix1 o : S11008.Idx) : EReal)
  rw [Finset.sum_range]
  exact congrArg₂ (fun u v : EReal => u * v) (Finset.sum_congr rfl fun kb _ => termG_row m c b q o kb) (V_scale m c o)

/-- From a run of the program to the frame's post, with every core's region output the tiled product: the run ends with
    the result at `kerOut` of the arguments and the arguments unchanged. -/
theorem run_value_of (ρ : Dev nD → PrngReg)
    (dats : (p : Fin 1) → (c : Dev nD) → Pipeline.Dat τ (Elt Ideal) Unit ℕ (UR sig nD τ) ℕ (cfgs p) c)
    (hG : ∀ c, (dats 0 c).arrAt 4 cfg0.N = G11 m c)
    (h : θ_run defs (onTc (τ := τ) (main (F := Ideal))) (s₀ m ρ)
      (Pipeline.FramePost cfgs dats 0 (Pipeline.afterTail₀ cfgs dats 0 (V0 m) [hostOps1]))) :
    θ_run defs (onTc (τ := τ) (main (F := Ideal))) ⟨m, fun _ => 0, ρ⟩ (fun r => ∀ c : Dev nD,
      r.2.mem ((c.tc : Thread nD τ).loc main_v12)
        = kerOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (result_eq m c dats (hG c)),
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

end Cert.KernelIdeal.Host

end
-- ==== Proof.IdealConds.lean ====
import proofs.«127360_j47794396070042_2_alg».proof.Proof.Gen.KernelIdeal.Frame
import proofs.«127360_j47794396070042_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first conditional: the point is the first along the feature-block axis (the accumulator is reset). -/
abbrev condFirst (i : grid0.Coords) : Prop :=
  (Scalar.cmpi .ne (Scalar.extui (Scalar.cmpi .eq (BitVec.ofNat 32 (i 2).val) 0#32)) 0#32) = 1#1
/-- Its second: the point is the last along that axis (the scaled accumulator is stored to the result block). -/
abbrev condLast (i : grid0.Coords) : Prop := k0_cond2 i = 1#1

/-- Over the grid the first holds exactly at the points ≡ 0 (mod 4), -/
theorem condFirst_iff : ∀ t : Fin cfg0.N, condFirst (grid0.coords t) ↔ t.val % 4 = 0 :=
  (by decide +kernel : ∀ t : Fin grid0.N, condFirst (grid0.coords t) ↔ t.val % 4 = 0)
/-- and the second exactly at the points ≡ 3 (mod 4). -/
theorem condLast_iff : ∀ t : Fin cfg0.N, condLast (grid0.coords t) ↔ t.val % 4 = 3 :=
  (by decide +kernel : ∀ t : Fin grid0.N, condLast (grid0.coords t) ↔ t.val % 4 = 3)

end Cert.KernelIdeal.Body

end
-- ==== Proof.IdealRunA.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealConds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point that is first and not last along the feature-block axis: the accumulator, whatever it held, is reset and takes the two products; every other buffer is left as found. The pieces the accumulator ends with are found by running the body. -/
noncomputable def runA (c : Dev nD) (i : grid0.Coords)
    (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : condFirst i) (hc1 : ¬condLast i) (x3 : Vec F S2048x1024 .bf16) (x4 : Vec F S2048x1024 .bf16) (x5 : Vec F S1024x1024 .bf16) (x6 : Vec F S1x1024 .f32) (x7 : Vec F S2048x1024 .f32) :
    { LS : List (View.Piece (Elt F) S2048x1024 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ (∃ d, owns (c : Thread nD τ) arg8 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, fun E K => ?run⟩
  case run =>
    simp only [cc0__matmul_kernel_eq_skeleton]; unfold cc0__matmul_kernel_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Body

end
-- ==== Proof.IdealRunB.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealRunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point that is neither first nor last along the feature-block axis: the accumulator takes the two products on top of what the point before left; every other buffer is left as found. -/
noncomputable def runB (c : Dev nD) (i : grid0.Coords)
    (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : ¬condLast i) (x3 : Vec F S2048x1024 .bf16) (x4 : Vec F S2048x1024 .bf16) (x5 : Vec F S1024x1024 .bf16) (x6 : Vec F S1x1024 .f32) (x7 : Vec F S2048x1024 .f32) (xs : Vec F S2048x1024 .f32) :
    { LS : List (View.Piece (Elt F) S2048x1024 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare xs
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, fun E K => ?run⟩
  case run =>
    simp only [cc0__matmul_kernel_eq_skeleton]; unfold cc0__matmul_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Body

end
-- ==== Proof.IdealRunC.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealRunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point that is last and not first along the feature-block axis: the accumulator takes the two products on top of what the point before left, and the result block, whatever it held, takes the accumulator scaled by the scale row; the four input buffers are left as found. -/
noncomputable def runC (c : Dev nD) (i : grid0.Coords)
    (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : condLast i) (x3 : Vec F S2048x1024 .bf16) (x4 : Vec F S2048x1024 .bf16) (x5 : Vec F S1024x1024 .bf16) (x6 : Vec F S1x1024 .f32) (xs : Vec F S2048x1024 .f32) :
    Σ' (L7 : List (View.Piece (Elt F) S2048x1024 .f32)), { LS : List (View.Piece (Elt F) S2048x1024 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ (∃ d, owns (c : Thread nD τ) arg7 fullShare d)
            ∗ owns (c : Thread nD τ) arg8 fullShare xs
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, ?_, fun E K => ?run⟩
  case run =>
    simp only [cc0__matmul_kernel_eq_skeleton]; unfold cc0__matmul_kernel_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg3.eq_unread hf3; obtain rfl := harg4.eq_unread hf4; obtain rfl := harg5.eq_unread hf5; obtain rfl := harg6.eq_unread hf6; obtain rfl := harg8.eq_unread hf8
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.KernelIdeal.Body

end
-- ==== Proof.IdealPieces.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealRunC
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! What each control case leaves behind, as terms of the body's four stored values: every store and load of the body
    goes through a buffer's whole rectangle, so a store leaves its value whatever was stored before, and a load after
    it reads that value. Stated through any view of the shape and over any earlier contents. -/

/-- The zero offsets, as a function. -/
theorem off0 : (![0, 0] : Fin 2 → Nat) = fun _ => 0 := funext fun a => by fin_cases a <;> rfl

/-- A whole-rectangle load after a whole-rectangle store reads the stored value, whatever was stored earlier. -/
theorem readCov_cons_whole {Val : EltTy → Type} [∀ e, Nonempty (Val e)] {S : Shape} {e : EltTy} {sg : RefSig} {κ : Kind} {sp : Space}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- The accumulator's pieces cover it, in each case; so do the result block's in the last. -/
theorem coverA (c : Dev nD) (i : grid0.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole) (hc0 : condFirst i) (hc1 : ¬condLast i) (x3 : Vec F S2048x1024 .bf16) (x4 : Vec F S2048x1024 .bf16) (x5 : Vec F S1024x1024 .bf16) (x6 : Vec F S1x1024 .f32) (x7 : Vec F S2048x1024 .f32) (y : S2048x1024.Idx) :
    ∃ pc ∈ (runA c i arg3 harg3 arg4 harg4 arg5 harg5 arg6 harg6 arg7 harg7 arg8 harg8 hc0 hc1 x3 x4 x5 x6 x7).1, y ∈ pc.1.set :=
  View.cover_of_tiledL (runA c i arg3 harg3 arg4 harg4 arg5 harg5 arg6 harg6 arg7 harg7 arg8 harg8 hc0 hc1 x3 x4 x5 x6 x7).1 S2048x1024.size (by sl_kernel_rfl) y
theorem coverB (c : Dev nD) (i : grid0.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole) (hc0 : ¬condFirst i) (hc1 : ¬condLast i) (x3 : Vec F S2048x1024 .bf16) (x4 : Vec F S2048x1024 .bf16) (x5 : Vec F S1024x1024 .bf16) (x6 : Vec F S1x1024 .f32) (x7 : Vec F S2048x1024 .f32) (xs : Vec F S2048x1024 .f32) (y : S2048x1024.Idx) :
    ∃ pc ∈ (runB c i arg3 harg3 arg4 harg4 arg5 harg5 arg6 harg6 arg7 harg7 arg8 harg8 hc0 hc1 x3 x4 x5 x6 x7 xs).1, y ∈ pc.1.set :=
  View.cover_of_tiledL (runB c i arg3 harg3 arg4 harg4 arg5 harg5 arg6 harg6 arg7 harg7 arg8 harg8 hc0 hc1 x3 x4 x5 x6 x7 xs).1 S2048x1024.size (by sl_kernel_rfl) y
theorem coverC (c : Dev nD) (i : grid0.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole) (hc0 : ¬condFirst i) (hc1 : condLast i) (x3 : Vec F S2048x1024 .bf16) (x4 : Vec F S2048x1024 .bf16) (x5 : Vec F S1024x1024 .bf16) (x6 : Vec F S1x1024 .f32) (xs : Vec F S2048x1024 .f32) (y : S2048x1024.Idx) :
    ∃ pc ∈ (runC c i arg3 harg3 arg4 harg4 arg5 harg5 arg6 harg6 arg7 harg7 arg8 harg8 hc0 hc1 x3 x4 x5 x6 xs).2.1, y ∈ pc.1.set :=
  View.cover_of_tiledL (runC c i arg3 harg3 arg4 harg4 arg5 harg5 arg6 harg6 arg7 harg7 arg8 harg8 hc0 hc1 x3 x4 x5 x6 xs).2.1 S2048x1024.size (by sl_kernel_rfl) y
theorem coverRes (c : Dev nD) (i : grid0.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole) (hc0 : ¬condFirst i) (hc1 : condLast i) (x3 : Vec F S2048x1024 .bf16) (x4 : Vec F S2048x1024 .bf16) (x5 : Vec F S1024x1024 .bf16) (x6 : Vec F S1x1024 .f32) (xs : Vec F S2048x1024 .f32) (y : S2048x1024.Idx) :
    ∃ pc ∈ (runC c i arg3 harg3 arg4 harg4 arg5 harg5 arg6 harg6 arg7 harg7 arg8 harg8 hc0 hc1 x3 x4 x5 x6 xs).1, y ∈ pc.1.set :=
  View.cover_of_tiledL (runC c i arg3 harg3 arg4 harg4 arg5 harg5 arg6 harg6 arg7 harg7 arg8 harg8 hc0 hc1 x3 x4 x5 x6 xs).1 S2048x1024.size (by sl_kernel_rfl) y

/-- First block: the accumulator ends at the two products on top of the reset value. -/
theorem leftA (c : Dev nD) (i : grid0.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole) (hc0 : condFirst i) (hc1 : ¬condLast i) (x3 : Vec F S2048x1024 .bf16) (x4 : Vec F S2048x1024 .bf16) (x5 : Vec F S1024x1024 .bf16) (x6 : Vec F S1x1024 .f32) (x7 : Vec F S2048x1024 .f32)
    (v : View sig .tc .vmem S2048x1024 .f32) (f : v.ty.Contents (Elt F)) :
    v.read (Elt F) (v.writes (Elt F) f (runA c i arg3 harg3 arg4 harg4 arg5 harg5 arg6 harg6 arg7 harg7 arg8 harg8 hc0 hc1 x3 x4 x5 x6 x7).1)
      = k0_pay3 (k0_pay2 (k0_pay1 (F := F)) x3 x5) x4 x5 := by
  rw [View.read_writes_eq_canon _ _ _ (coverA c i arg3 harg3 arg4 harg4 arg5 harg5 arg6 harg6 arg7 harg7 arg8 harg8 hc0 hc1 x3 x4 x5 x6 x7)]
  unfold runA; dsimp only
  sl_unfold_run_names
  rw [View.canon_cons_unit_zero off0, readCov_cons_whole _ off0, readCov_cons_whole _ off0]
  simp only [View.readAt_eq_ld, harg3.read_unread, harg4.read_unread, harg5.read_unread,
    View.ld_unit_zero (S := S2048x1024) off0, View.ld_unit_zero (S := S1024x1024) off0]

/-- A middle block: the two products on top of what the accumulator held. -/
theorem leftB (c : Dev nD) (i : grid0.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole) (hc0 : ¬condFirst i) (hc1 : ¬condLast i) (x3 : Vec F S2048x1024 .bf16) (x4 : Vec F S2048x1024 .bf16) (x5 : Vec F S1024x1024 .bf16) (x6 : Vec F S1x1024 .f32) (x7 : Vec F S2048x1024 .f32) (xs : Vec F S2048x1024 .f32)
    (v : View sig .tc .vmem S2048x1024 .f32) (f : v.ty.Contents (Elt F)) :
    v.read (Elt F) (v.writes (Elt F) f (runB c i arg3 harg3 arg4 harg4 arg5 harg5 arg6 harg6 arg7 harg7 arg8 harg8 hc0 hc1 x3 x4 x5 x6 x7 xs).1)
      = k0_pay3 (k0_pay2 xs x3 x5) x4 x5 := by
  rw [View.read_writes_eq_canon _ _ _ (coverB c i arg3 harg3 arg4 harg4 arg5 harg5 arg6 harg6 arg7 harg7 arg8 harg8 hc0 hc1 x3 x4 x5 x6 x7 xs)]
  unfold runB; dsimp only
  sl_unfold_run_names
  rw [View.canon_cons_unit_zero off0, readCov_cons_whole _ off0]
  simp only [View.readAt_eq_ld, harg8.read_unread, harg3.read_unread, harg4.read_unread, harg5.read_unread,
    View.ld_unit_zero (S := S2048x1024) off0, View.ld_unit_zero (S := S1024x1024) off0]

/-- The last block: the accumulator as in a middle block, -/
theorem leftC (c : Dev nD) (i : grid0.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole) (hc0 : ¬condFirst i) (hc1 : condLast i) (x3 : Vec F S2048x1024 .bf16) (x4 : Vec F S2048x1024 .bf16) (x5 : Vec F S1024x1024 .bf16) (x6 : Vec F S1x1024 .f32) (xs : Vec F S2048x1024 .f32)
    (v : View sig .tc .vmem S2048x1024 .f32) (f : v.ty.Contents (Elt F)) :
    v.read (Elt F) (v.writes (Elt F) f (runC c i arg3 harg3 arg4 harg4 arg5 harg5 arg6 harg6 arg7 harg7 arg8 harg8 hc0 hc1 x3 x4 x5 x6 xs).2.1)
      = k0_pay3 (k0_pay2 xs x3 x5) x4 x5 := by
  rw [View.read_writes_eq_canon _ _ _ (coverC c i arg3 harg3 arg4 harg4 arg5 harg5 arg6 harg6 arg7 harg7 arg8 harg8 hc0 hc1 x3 x4 x5 x6 xs)]
  unfold runC; dsimp only
  sl_unfold_run_names
  rw [View.canon_cons_unit_zero off0, readCov_cons_whole _ off0]
  simp only [View.readAt_eq_ld, harg8.read_unread, harg3.read_unread, harg4.read_unread, harg5.read_unread,
    View.ld_unit_zero (S := S2048x1024) off0, View.ld_unit_zero (S := S1024x1024) off0]

/-- and the result block at that accumulator scaled by the scale row. -/
theorem resC (c : Dev nD) (i : grid0.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole) (hc0 : ¬condFirst i) (hc1 : condLast i) (x3 : Vec F S2048x1024 .bf16) (x4 : Vec F S2048x1024 .bf16) (x5 : Vec F S1024x1024 .bf16) (x6 : Vec F S1x1024 .f32) (xs : Vec F S2048x1024 .f32)
    (v : View sig .tc .vmem S2048x1024 .f32) (f : v.ty.Contents (Elt F)) :
    v.read (Elt F) (v.writes (Elt F) f (runC c i arg3 harg3 arg4 harg4 arg5 harg5 arg6 harg6 arg7 harg7 arg8 harg8 hc0 hc1 x3 x4 x5 x6 xs).1)
      = k0_pay4 (k0_pay3 (k0_pay2 xs x3 x5) x4 x5) x6 := by
  rw [View.read_writes_eq_canon _ _ _ (coverRes c i arg3 harg3 arg4 harg4 arg5 harg5 arg6 harg6 arg7 harg7 arg8 harg8 hc0 hc1 x3 x4 x5 x6 xs)]
  unfold runC; dsimp only
  sl_unfold_run_names
  rw [View.canon_cons_unit_zero off0, readCov_cons_whole _ off0, readCov_cons_whole _ off0]
  simp only [View.readAt_eq_ld, harg8.read_unread, harg3.read_unread, harg4.read_unread, harg5.read_unread, harg6.read_unread,
    View.ld_unit_zero (S := S2048x1024) off0, View.ld_unit_zero (S := S1024x1024) off0, View.ld_unit_zero (S := S1x1024) off0]

end Cert.KernelIdeal.Body

end
-- ==== Proof.IdealGrid.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealConds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The grid in closed form. Point number `n` of the 4 × 11 × 4 grid (last coordinate fastest) is row-block
    `n / 44`, channel-block `n / 4 % 11`, feature-block `n % 4`. Each window's block index at a point, and how much of
    a block the transfers move where the last channel block overhangs the 11008 channels, are decided once over
    the 176 points. -/

/-- Input blocks of the two activation operands: (row block, feature block). -/
theorem idx0 : ∀ t : Fin cfg0.N, win0_0.index t 0 = t.val / 44 ∧ win0_0.index t 1 = t.val % 4 :=
  (by decide +kernel : ∀ t : Fin grid0.N, win0_0.index t 0 = t.val / 44 ∧ win0_0.index t 1 = t.val % 4)
theorem idx1 : ∀ t : Fin cfg0.N, win0_1.index t 0 = t.val / 44 ∧ win0_1.index t 1 = t.val % 4 :=
  (by decide +kernel : ∀ t : Fin grid0.N, win0_1.index t 0 = t.val / 44 ∧ win0_1.index t 1 = t.val % 4)
/-- The weight operand: (channel block, feature block). -/
theorem idx2 : ∀ t : Fin cfg0.N, win0_2.index t 0 = t.val / 4 % 11 ∧ win0_2.index t 1 = t.val % 4 :=
  (by decide +kernel : ∀ t : Fin grid0.N, win0_2.index t 0 = t.val / 4 % 11 ∧ win0_2.index t 1 = t.val % 4)
/-- The scale row: (0, channel block). -/
theorem idx3 : ∀ t : Fin cfg0.N, win0_3.index t 0 = 0 ∧ win0_3.index t 1 = t.val / 4 % 11 :=
  (by decide +kernel : ∀ t : Fin grid0.N, win0_3.index t 0 = 0 ∧ win0_3.index t 1 = t.val / 4 % 11)
/-- The result: (row block, channel block). -/
theorem idx4 : ∀ t : Fin cfg0.N, win0_4.index t 0 = t.val / 44 ∧ win0_4.index t 1 = t.val / 4 % 11 :=
  (by decide +kernel : ∀ t : Fin grid0.N, win0_4.index t 0 = t.val / 44 ∧ win0_4.index t 1 = t.val / 4 % 11)

/-- How much of a block the transfers move: all of it, except that the channel axis stops at channel 11008. -/
theorem xs2 : ∀ t : Fin cfg0.N, win0_2.xsize (grid0.coords t) 0 = min 1024 (11008 - 1024 * (t.val / 4 % 11)) ∧ win0_2.xsize (grid0.coords t) 1 = 1024 :=
  (by decide +kernel : ∀ t : Fin grid0.N, win0_2.xsize (grid0.coords t) 0 = min 1024 (11008 - 1024 * (t.val / 4 % 11)) ∧ win0_2.xsize (grid0.coords t) 1 = 1024)
theorem xs3 : ∀ t : Fin cfg0.N, win0_3.xsize (grid0.coords t) 0 = 1 ∧ win0_3.xsize (grid0.coords t) 1 = min 1024 (11008 - 1024 * (t.val / 4 % 11)) :=
  (by decide +kernel : ∀ t : Fin grid0.N, win0_3.xsize (grid0.coords t) 0 = 1 ∧ win0_3.xsize (grid0.coords t) 1 = min 1024 (11008 - 1024 * (t.val / 4 % 11)))
theorem xs4 : ∀ t : Fin cfg0.N, win0_4.xsize (grid0.coords t) 0 = 2048 ∧ win0_4.xsize (grid0.coords t) 1 = min 1024 (11008 - 1024 * (t.val / 4 % 11)) :=
  (by decide +kernel : ∀ t : Fin grid0.N, win0_4.xsize (grid0.coords t) 0 = 2048 ∧ win0_4.xsize (grid0.coords t) 1 = min 1024 (11008 - 1024 * (t.val / 4 % 11)))

/-- The grid has 176 points. -/
theorem N176 : cfg0.N = 176 := N_0

/-- The result window is idle exactly away from the last feature block, and written back exactly there. -/
theorem idle4 : ∀ t : Fin cfg0.N, cfg0.idle 4 (grid0.coords t) = !decide (t.val % 4 = 3) :=
  (by decide +kernel : ∀ t : Fin grid0.N, cfg0.idle 4 (grid0.coords t) = !decide (t.val % 4 = 3))

end Cert.KernelIdeal.Body

end
-- ==== Proof.LibMatmulLastAxes.lean ====
/-
  A matrix product that contracts the LAST axis of both operands, read at an entry, at the ideal values.

  The tiled kernels' product of an [M, K] block of activations with an [N, K] block of weights (one weight row per
  output feature: the right operand is NOT transposed first; the dimension numbers contract axis 1 of both) into a
  zero accumulator is, at entry (r, c), the plain sum over d of  l[r, d] · w[c, d]:  at the ideal values no rounding,
  no chunk order and no accumulator are left.  Stated for every M, K, N over the library's record of these dimension
  numbers; a printed record of the same seven lists is that record by definitional unfolding (its well-formedness field
  is a proof).
-/
import Idealize.ShloMosaic.PureOps.Ideal.Laws
import Idealize.ShloMosaic.Lib.ValueIdx

open scoped BigOperators

namespace Cert.LibMatmulLastAxes

open Idealize.ShloMosaic Idealize.ShloMosaic.ValueIdx

/-- A matrix product contracting the last axis of both operands, into the zero accumulator, at (r, c): the sum over
    d of l[r, d] · w[c, d]. -/
theorem matmul_lastAxes_zero_apply {M K N : Nat} {φ₁ φ₂ : FTy} (prec : Option ContractPrecision)
    (l : FVec Ideal ⟨2, ![M, K]⟩ φ₁) (w : FVec Ideal ⟨2, ![N, K]⟩ φ₂) (r : Fin M) (c : Fin N) :
    FloatOps.matmul (DotDims.transposedRhs M K N) prec l w (constant ⟨2, ![M, N]⟩ .f32 0x00000000#32) (ix2 r c)
      = ∑ d : Fin K, l (ix2 r d) * w (ix2 c d) := by
  rw [Ideal.matmul_constant_zero_apply]
  have hr : (DotDims.transposedRhs M K N).contr.rank = 1 := rfl
  have hs : (DotDims.transposedRhs M K N).contr.size ⟨0, by omega⟩ = K := rfl
  rw [← Equiv.sum_comp (contrEquiv1 (DotDims.transposedRhs M K N) K hr hs).symm]
  refine Finset.sum_congr rfl fun d _ => ?_
  have hd := contrEquiv1_symm_val (DotDims.transposedRhs M K N) K hr hs d
  congr 1
  · refine congrArg l (funext fun a => Fin.ext ?_)
    match a with
    | ⟨0, _⟩ => rfl
    | ⟨1, _⟩ => exact ((DotDims.transposedRhs M K N).lhsIdx_val_of_single rfl _ _).trans hd
  · refine congrArg w (funext fun a => Fin.ext ?_)
    match a with
    | ⟨0, _⟩ => rfl
    | ⟨1, _⟩ => exact ((DotDims.transposedRhs M K N).rhsIdx_val_of_single rfl _ _).trans hd

end Cert.LibMatmulLastAxes
-- ==== Proof.IdealPay.lean ====
/-
  The four values the kernel body stores, read one entry at a time over the extended reals.

  * the reset value is zero everywhere;
  * each of the two accumulation steps adds to the running entry (r, c) the inner product of row r of an
    activation block with row c of the weight block (both blocks are [rows, 1024 features]; the product contracts the
    feature axis of both, so no transpose is involved);
  * the final value multiplies entry (r, c) of the accumulator by entry c of the one-row scale block.
-/
import proofs.«127360_j47794396070042_2_alg».proof.Proof.Gen.KernelIdeal.Skeleton
import proofs.«127360_j47794396070042_2_alg».proof.Proof.LibMatmulLastAxes
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- The printed dimension numbers are "contract axis 1 of both operands". -/
theorem dims_eq : dot_S2048x1024_S1024x1024_S2048x1024_1_1_0_0_n_n = DotDims.transposedRhs 2048 1024 1024 := rfl

/-- The reset value: zero at every entry. -/
theorem pay1_apply (y : S2048x1024.Idx) : k0_pay1 (F := Ideal) y = 0 := by
  unfold k0_pay1
  rw [shapeCast_self]
  show Ideal.ofBits .f32 0x00000000#32 = 0
  exact Ideal.ofBits_zero_f32

/-- One accumulation step at entry (r, c): the running entry plus the inner product of the two rows. -/
theorem step_apply (acc : Vec Ideal S2048x1024 .f32) (a : Vec Ideal S2048x1024 .bf16) (b : Vec Ideal S1024x1024 .bf16)
    (r : Fin 2048) (c : Fin 1024) :
    k0_pay2 (F := Ideal) acc a b (ix2 r c) = acc (ix2 r c) + ∑ d : Fin 1024, a (ix2 r d) * b (ix2 c d) := by
  unfold k0_pay2
  rw [shapeCast_self, shapeCast_self, shapeCast_self, addf_apply, dims_eq]
  exact congrArg (acc (ix2 r c) + ·) (Cert.LibMatmulLastAxes.matmul_lastAxes_zero_apply none a b r c)

/-- The second accumulation step is the same function of its three operands. -/
theorem step'_apply (acc : Vec Ideal S2048x1024 .f32) (a : Vec Ideal S2048x1024 .bf16) (b : Vec Ideal S1024x1024 .bf16)
    (r : Fin 2048) (c : Fin 1024) :
    k0_pay3 (F := Ideal) acc a b (ix2 r c) = acc (ix2 r c) + ∑ d : Fin 1024, a (ix2 r d) * b (ix2 c d) := by
  unfold k0_pay3
  rw [shapeCast_self, shapeCast_self, shapeCast_self, addf_apply, dims_eq]
  exact congrArg (acc (ix2 r c) + ·) (Cert.LibMatmulLastAxes.matmul_lastAxes_zero_apply none a b r c)

/-- The scaled result at entry (r, c): the accumulator's entry times the scale row's entry c. -/
theorem scaled_apply (acc : Vec Ideal S2048x1024 .f32) (s : Vec Ideal S1x1024 .f32) (r : Fin 2048) (c : Fin 1024) :
    k0_pay4 (F := Ideal) acc s (ix2 r c) = acc (ix2 r c) * s (ix2 (0 : Fin 1) c) := by
  unfold k0_pay4
  rw [shapeCast_self, mulf_apply]
  refine congrArg (acc (ix2 r c) * ·) ?_
  refine broadcastTo_apply s _ (ix2 r c) (ix2 (0 : Fin 1) c) fun a => ?_
  match a with
  | ⟨0, _⟩ => rfl
  | ⟨1, _⟩ => rfl

end Cert.KernelIdeal.Pay

end
-- ==== Proof.LibClippedFill.lean ====
/-
  Two facts about a staging buffer that a CLIPPED fetch filled (a window whose last block overhangs its array).

  A fetch at grid coordinates `i` moves only the leading part of the block, the part inside the array; the rest of
  the buffer holds contents `d` nothing names. `Window.fill i d g` is that buffer: `g` on the moved part, `d` elsewhere.
  * `fill_of_moved`: at a moved entry the buffer holds the fetched entry;
  * `fill_eq_of_moved`: so at a moved entry two fills with different unnamed contents agree.
  With these, a value computed from moved entries only is seen not to depend on the unnamed contents.
-/
import Idealize.ShloMosaic.Lib.Pipeline

namespace Cert.LibClippedFill

open Idealize.ShloMosaic Idealize.ShloMosaic.Pipeline

/-- Where a fetch moves an entry, the buffer holds the fetched entry. -/
theorem fill_of_moved {sig : RefSig} {G : Grid} (w : Window sig G) {α : Type} (i : G.Coords) (d : w.block.Idx → α)
    (g : (w.xblock i).Idx → α) (y : w.block.Idx) (h : w.moved i y = true) :
    w.fill i d g y = g (fun a => ⟨(y a).val, (w.moved_iff i y).mp h a⟩) := by
  unfold Window.fill; rw [dif_pos h]

/-- Where a fetch moves an entry, the buffer holds the fetched entry whatever it held before. -/
theorem fill_eq_of_moved {sig : RefSig} {G : Grid} (w : Window sig G) {α : Type} (i : G.Coords) (d d' : w.block.Idx → α)
    (g : (w.xblock i).Idx → α) (y : w.block.Idx) (h : w.moved i y = true) : w.fill i d g y = w.fill i d' g y := by
  rw [fill_of_moved w i d g y h, fill_of_moved w i d' g y h]

end Cert.LibClippedFill
-- ==== Proof.IdealData.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealPieces
import proofs.«127360_j47794396070042_2_alg».proof.Proof.IdealGrid
import proofs.«127360_j47794396070042_2_alg».proof.Proof.IdealSpec
import proofs.«127360_j47794396070042_2_alg».proof.Proof.IdealPay
import proofs.«127360_j47794396070042_2_alg».proof.Proof.LibClippedFill
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-! ## Names -/

/-- Each window's current staging buffer at a point, as the pipeline passes it to the body, and its wholeness. -/
abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)
/-- The accumulator: a scratch buffer of the kernel's own, carried from point to point. -/
abbrev scM : Memref sig .tc .vmem S2048x1024 .f32 := Memref.whole cc0_scratch0

/-- What the region hands the body besides the windows: the accumulator at some contents, and the generator register. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The invariant and the proof data -/

/-- After point `n` the accumulator agrees with the partial sum over the feature blocks done so far, at every entry whose
    channel lies inside the array. (Past channel 11008, in the last channel block, it holds what nothing names.) -/
def AccOK (c : Dev nD) (n : ℕ) (X : S2048x1024.Idx → EReal) : Prop :=
  ∀ (r : Fin 2048) (cc : Fin 1024), 1024 * (n / 4 % 11) + cc.val < 11008 →
    X (ix2 r cc) = accG m c (n / 44) (n / 4 % 11) (n % 4 + 1) r cc

/-- The region's invariant before point `n`: at the start whatever the region was handed; later the accumulator at
    contents that agree with the partial sum after point `n - 1`. -/
def PhiS (c : Dev nD) : (n : ℕ) → sProp 𝕄
  | 0 => Pipeline.ΦA spec0 c
  | n + 1 => iprop(iprop((∃ X, ⌜AccOK m c n X⌝ ∗ owns (c : Thread nD τ) scM fullShare X)) ∗ (∃ r, prngReg c r))

/-- The proof data: the arrays as the region finds them; after the body the two activation buffers at their blocks,
    the weight buffer at its block (zero past the array), the scale buffer at the channel block's scales, the result
    buffer at the block of the result array `G11`; the invariant above; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => fun y => srow m c (ix2 (0 : Fin 1) (colG (t.val / 4 % 11) (y 1)))
    | ⟨4, _⟩ => fun y => G11 m c (ix2 (rowG (t.val / 44) (y 0)) (colG (t.val / 4 % 11) (y 1)))
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = win0_2.fill (grid0.coords t) (fun _ => (0 : EReal)) (iblk m c 2 t) := by dsimp only [dats]
theorem after3 (c : Dev nD) (t : Fin cfg0.N) :
    (dats m 0 c).after 3 t = fun y => srow m c (ix2 (0 : Fin 1) (colG (t.val / 4 % 11) (y 1))) := by dsimp only [dats]
theorem after4 (c : Dev nD) (t : Fin cfg0.N) :
    (dats m 0 c).after 4 t = fun y => G11 m c (ix2 (rowG (t.val / 44) (y 0)) (colG (t.val / 4 % 11) (y 1))) := by dsimp only [dats]

/-- The two activation buffers hold their blocks at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The weight buffer is fetched at every point: its block where the fetch moved it, anything elsewhere. -/
theorem before2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]; try rfl

/-! ## What the input buffers hold, entry by entry -/

/-- The first activation buffer at (r, d): the operand's entry in row block `n / 44`, feature block `n % 4`. -/
theorem hi_at (c : Dev nD) (t : Fin cfg0.N) (d) (r : Fin 2048) (d' : Fin 1024) :
    (dats m 0 c).before 0 t d (ix2 r d') = xhi m c (ix2 (rowG (t.val / 44) r) (featN (t.val % 4) d')) := by
  rw [before0]
  have hN : t.val < 176 := lt_of_lt_of_eq t.isLt N176
  show V m c main_v7 (((cfg0.win 0).blk t).view.emb (ix2 r d')) = V m c main_v7 (ix2 (rowG (t.val / 44) r) (featN (t.val % 4) d'))
  refine congrArg (V m c main_v7) (funext fun a => Fin.ext ?_)
  match a with
  | ⟨0, _⟩ =>
    show win0_0.index t 0 * 2048 + 1 * r.val = min (2048 * (t.val / 44) + r.val) 8191
    rw [(idx0 t).1]; omega
  | ⟨1, _⟩ =>
    show win0_0.index t 1 * 1024 + 1 * d'.val = min (1024 * (t.val % 4) + d'.val) 4095
    rw [(idx0 t).2]; omega

/-- The second activation buffer likewise. -/
theorem lo_at (c : Dev nD) (t : Fin cfg0.N) (d) (r : Fin 2048) (d' : Fin 1024) :
    (dats m 0 c).before 1 t d (ix2 r d') = xlo m c (ix2 (rowG (t.val / 44) r) (featN (t.val % 4) d')) := by
  rw [before1]
  have hN : t.val < 176 := lt_of_lt_of_eq t.isLt N176
  show V m c main_v10 (((cfg0.win 1).blk t).view.emb (ix2 r d')) = V m c main_v10 (ix2 (rowG (t.val / 44) r) (featN (t.val % 4) d'))
  refine congrArg (V m c main_v10) (funext fun a => Fin.ext ?_)
  match a with
  | ⟨0, _⟩ =>
    show win0_1.index t 0 * 2048 + 1 * r.val = min (2048 * (t.val / 44) + r.val) 8191
    rw [(idx1 t).1]; omega
  | ⟨1, _⟩ =>
    show win0_1.index t 1 * 1024 + 1 * d'.val = min (1024 * (t.val % 4) + d'.val) 4095
    rw [(idx1 t).2]; omega

/-- A channel inside the array is one the weight window's transfers move. -/
theorem moved2 (t : Fin cfg0.N) (cc d' : Fin 1024) (hcc : 1024 * (t.val / 4 % 11) + cc.val < 11008) :
    win0_2.moved (grid0.coords t) (ix2 cc d') = true :=
  (win0_2.moved_iff _ _).mpr fun a => by
    match a with
    | ⟨0, _⟩ => show cc.val < win0_2.xsize (grid0.coords t) 0; rw [(xs2 t).1]; omega
    | ⟨1, _⟩ => show d'.val < win0_2.xsize (grid0.coords t) 1; rw [(xs2 t).2]; exact d'.isLt

/-- The weight buffer at (cc, d), for a channel inside the array: the quantized weight's entry in channel block
    `n / 4 % 11`, feature block `n % 4` — whatever the buffer held past the array's end. -/
theorem w_at (c : Dev nD) (t : Fin cfg0.N) (d) (cc d' : Fin 1024) (hcc : 1024 * (t.val / 4 % 11) + cc.val < 11008) :
    (dats m 0 c).before 2 t d (ix2 cc d') = wq m c (ix2 (colG (t.val / 4 % 11) cc) (featN (t.val % 4) d')) := by
  rw [before2, Cert.LibClippedFill.fill_of_moved win0_2 _ _ _ _ (moved2 t cc d' hcc)]
  have hN : t.val < 176 := lt_of_lt_of_eq t.isLt N176
  show V m c main_v4 (((cfg0.win 2).blk t).view.emb (fun a => ⟨(ix2 cc d' a).val, _⟩)) = V m c main_v4 (ix2 (colG (t.val / 4 % 11) cc) (featN (t.val % 4) d'))
  refine congrArg (V m c main_v4) (funext fun a => Fin.ext ?_)
  match a with
  | ⟨0, _⟩ =>
    show win0_2.index t 0 * 1024 + 1 * cc.val = min (1024 * (t.val / 4 % 11) + cc.val) 11007
    rw [(idx2 t).1]; omega
  | ⟨1, _⟩ =>
    show win0_2.index t 1 * 1024 + 1 * d'.val = min (1024 * (t.val % 4) + d'.val) 4095
    rw [(idx2 t).2]; omega

end Cert.KernelIdeal.Body

end
-- ==== Proof.IdealFinal.lean ====
/-
  From blocks to the array: the result array the region leaves is the tiled product `G11`.

  Point n of the 4 × 11 × 4 grid writes its result block back exactly when it is the last feature block (n % 4 = 3).
  What it writes is, by the choice of the proof data, the block of `G11` at row block n / 44, channel block n / 4 % 11,
  cut at channel 11008 — there the clamps in the block's coordinates are idle. Entry (R, O) of the array lies in the
  block of point 44 * (R / 2048) + 4 * (O / 1024) + 3, so the written blocks cover the array.
-/
import proofs.«127360_j47794396070042_2_alg».proof.Proof.IdealData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ)

/-- What point `t` writes back is block `t` of `G11`, cut at the array's end. -/
theorem flushed4_eq (c : Dev nD) (t : Fin cfg0.N) :
    (dats m 0 c).flushed 4 t = ((cfg0.win 4).blk t).view.read (Elt Ideal) (G11 m c) := by
  show (cfg0.win 4).cut (grid0.coords t) ((dats m 0 c).after 4 t) = _
  rw [after4]
  funext j
  have h0 : (j 0).val < win0_4.xsize (grid0.coords t) 0 := (j 0).isLt
  have h1 : (j 1).val < win0_4.xsize (grid0.coords t) 1 := (j 1).isLt
  rw [(xs4 t).1] at h0
  rw [(xs4 t).2] at h1
  have hN : t.val < 176 := lt_of_lt_of_eq t.isLt N176
  show G11 m c (ix2 (rowG (t.val / 44) (win0_4.xinj (grid0.coords t) j 0)) (colG (t.val / 4 % 11) (win0_4.xinj (grid0.coords t) j 1)))
      = G11 m c (((cfg0.win 4).blk t).view.emb j)
  refine congrArg (G11 m c) (funext fun a => Fin.ext ?_)
  match a with
  | ⟨0, _⟩ =>
    show min (2048 * (t.val / 44) + (j 0).val) 8191 = win0_4.index t 0 * 2048 + 1 * (j 0).val
    rw [(idx4 t).1]; omega
  | ⟨1, _⟩ =>
    show min (1024 * (t.val / 4 % 11) + (j 1).val) 11007 = win0_4.index t 1 * 1024 + 1 * (j 1).val
    rw [(idx4 t).2]; omega

/-- An index of the array is in point `t`'s block iff each coordinate is in the block's range, cut at the array's end. -/
theorem mem_blk4 (t : Fin cfg0.N) (i : S8192x11008.Idx) :
    i ∈ ((cfg0.win 4).blk t).view.set
      ↔ ∀ a : Fin 2, win0_4.index t a * S2048x1024.size a ≤ (i a).val
          ∧ (i a).val < win0_4.index t a * S2048x1024.size a + win0_4.xsize (grid0.coords t) a := by
  show i ∈ ((View.whole main_v11).slice (win0_4.rect t)).set ↔ _
  rw [View.set_slice_whole, Rect.mem_set_unit]
  exact Iff.rfl

/-- Every index of the array is in the block some writing point writes. -/
theorem cover4 (i : S8192x11008.Idx) :
    ∃ t : Fin cfg0.N, (cfg0.win 4).flush t = true ∧ i ∈ ((cfg0.win 4).blk t).view.set := by
  have hR : (i 0).val < 8192 := (i 0).isLt
  have hO : (i 1).val < 11008 := (i 1).isLt
  have hlt : 44 * ((i 0).val / 2048) + 4 * ((i 1).val / 1024) + 3 < cfg0.N := by rw [N176]; omega
  refine ⟨⟨44 * ((i 0).val / 2048) + 4 * ((i 1).val / 1024) + 3, hlt⟩, (flush0_4 _).mpr (by show (44 * ((i 0).val / 2048) + 4 * ((i 1).val / 1024) + 3) % 4 = 3; omega), ?_⟩
  rw [mem_blk4]
  intro a
  match a with
  | ⟨0, _⟩ =>
    show win0_4.index ⟨_, hlt⟩ 0 * 2048 ≤ (i 0).val ∧ (i 0).val < win0_4.index ⟨_, hlt⟩ 0 * 2048 + win0_4.xsize (grid0.coords ⟨_, hlt⟩) 0
    rw [(idx4 _).1, (xs4 _).1]
    show (44 * ((i 0).val / 2048) + 4 * ((i 1).val / 1024) + 3) / 44 * 2048 ≤ (i 0).val ∧ (i 0).val < (44 * ((i 0).val / 2048) + 4 * ((i 1).val / 1024) + 3) / 44 * 2048 + 2048
    omega
  | ⟨1, _⟩ =>
    show win0_4.index ⟨_, hlt⟩ 1 * 1024 ≤ (i 1).val ∧ (i 1).val < win0_4.index ⟨_, hlt⟩ 1 * 1024 + win0_4.xsize (grid0.coords ⟨_, hlt⟩) 1
    rw [(idx4 _).2, (xs4 _).2]
    show (44 * ((i 0).val / 2048) + 4 * ((i 1).val / 1024) + 3) / 4 % 11 * 1024 ≤ (i 1).val
      ∧ (i 1).val < (44 * ((i 0).val / 2048) + 4 * ((i 1).val / 1024) + 3) / 4 % 11 * 1024
          + min 1024 (11008 - 1024 * ((44 * ((i 0).val / 2048) + 4 * ((i 1).val / 1024) + 3) / 4 % 11))
    omega

/-- The region leaves its result array at the tiled product. -/
theorem final (c : Dev nD) : (dats m 0 c).arrAt 4 cfg0.N = G11 m c :=
  (dats m 0 c).arrAt_eq_of_cover 4 (G11 m c) (fun t _ => flushed4_eq m c t) cover4

end Cert.KernelIdeal.Body

end
-- ==== Proof.IdealAcc.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealData
import proofs.«127360_j47794396070042_2_alg».proof.Proof.IdealGrid
import proofs.«127360_j47794396070042_2_alg».proof.Proof.IdealSpec
import proofs.«127360_j47794396070042_2_alg».proof.Proof.IdealPay
import proofs.«127360_j47794396070042_2_alg».proof.Proof.LibClippedFill
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

local notation "𝕄" => MT nD τ sig Unit (Elt Ideal) ℕ (UR sig nD τ) ℕ

variable (m : (ℓ : Loc nD τ sig) → Buf (Elt Ideal) ℓ)

/-! The accumulator's invariant, step by step, over the extended reals. Only associativity of addition and
    `0 + a = a` are used: nothing here needs a finite input. Stated over any buffer contents that agree with the four
    arrays entry by entry (on channels inside the array, for the weight and the scale). -/

/-- At the first feature block the reset accumulator takes that block's two products: the partial sum of one block. -/
theorem acc_first_ok (c : Dev nD) (n : ℕ) (h0 : n % 4 = 0)
    (x3 x4 : Vec Ideal S2048x1024 .bf16) (x5 : Vec Ideal S1024x1024 .bf16)
    (h3 : ∀ (r : Fin 2048) (d : Fin 1024), x3 (ix2 r d) = xhi m c (ix2 (rowG (n / 44) r) (featN (n % 4) d)))
    (h4 : ∀ (r : Fin 2048) (d : Fin 1024), x4 (ix2 r d) = xlo m c (ix2 (rowG (n / 44) r) (featN (n % 4) d)))
    (h5 : ∀ (cc d : Fin 1024), 1024 * (n / 4 % 11) + cc.val < 11008 → x5 (ix2 cc d) = wq m c (ix2 (colG (n / 4 % 11) cc) (featN (n % 4) d))) :
    AccOK m c n (k0_pay3 (F := Ideal) (k0_pay2 (F := Ideal) (k0_pay1 (F := Ideal)) x3 x5) x4 x5) := by
  intro r cc hcc
  rw [Pay.step'_apply, Pay.step_apply, Pay.pay1_apply, zero_add]
  simp only [h3, h4, h5 _ _ hcc]
  unfold accG
  rw [h0, Finset.sum_range_one]
  rfl

/-- At a later feature block the accumulator takes that block's two products on top of the partial sum so far. -/
theorem acc_step_ok (c : Dev nD) (n : ℕ) (h0 : n % 4 ≠ 0) (X : Vec Ideal S2048x1024 .f32) (hX : AccOK m c (n - 1) X)
    (x3 x4 : Vec Ideal S2048x1024 .bf16) (x5 : Vec Ideal S1024x1024 .bf16)
    (h3 : ∀ (r : Fin 2048) (d : Fin 1024), x3 (ix2 r d) = xhi m c (ix2 (rowG (n / 44) r) (featN (n % 4) d)))
    (h4 : ∀ (r : Fin 2048) (d : Fin 1024), x4 (ix2 r d) = xlo m c (ix2 (rowG (n / 44) r) (featN (n % 4) d)))
    (h5 : ∀ (cc d : Fin 1024), 1024 * (n / 4 % 11) + cc.val < 11008 → x5 (ix2 cc d) = wq m c (ix2 (colG (n / 4 % 11) cc) (featN (n % 4) d))) :
    AccOK m c n (k0_pay3 (F := Ideal) (k0_pay2 (F := Ideal) X x3 x5) x4 x5) := by
  intro r cc hcc
  have e1 : (n - 1) / 44 = n / 44 := by omega
  have e2 : (n - 1) / 4 % 11 = n / 4 % 11 := by omega
  have e3 : (n - 1) % 4 + 1 = n % 4 := by omega
  rw [Pay.step'_apply, Pay.step_apply, hX r cc (by rw [e2]; exact hcc), e1, e2, e3]
  simp only [h3, h4, h5 _ _ hcc]
  unfold accG
  rw [Finset.sum_range_succ, add_assoc]
  rfl

/-- At the last feature block the scaled accumulator is the result array's block: four blocks accumulated, times the
    channel's scale. -/
theorem res_ok (c : Dev nD) (n : ℕ) (h1 : n % 4 = 3) (X : Vec Ideal S2048x1024 .f32) (hX : AccOK m c n X)
    (x6 : Vec Ideal S1x1024 .f32)
    (h6 : ∀ cc : Fin 1024, 1024 * (n / 4 % 11) + cc.val < 11008 → x6 (ix2 (0 : Fin 1) cc) = srow m c (ix2 (0 : Fin 1) (colG (n / 4 % 11) cc)))
    (r : Fin 2048) (cc : Fin 1024) (hcc : 1024 * (n / 4 % 11) + cc.val < 11008) :
    k0_pay4 (F := Ideal) X x6 (ix2 r cc) = G11 m c (ix2 (rowG (n / 44) r) (colG (n / 4 % 11) cc)) := by
  rw [Pay.scaled_apply, hX r cc hcc, h6 cc hcc, h1]
  rfl

end Cert.KernelIdeal.Body

end
-- ==== Proof.IdealScale.lean ====
import proofs.«127360_j47794396070042_2_alg».proof.Proof.IdealData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

local notation "𝕄" => MT nD τ sig Unit (Elt Ideal) ℕ (UR sig nD τ) ℕ

variable (m : (ℓ : Loc nD τ sig) → Buf (Elt Ideal) ℓ)

/-! ## The scale buffer across the four points of a channel block

The scale row [1, 11008] is staged in blocks of 1024 channels, block `n / 4 % 11` at point `n`; the last block
overhangs the row, so a fetch moves only the channels below 11008 and the rest of the buffer holds what nothing names.
The block index does not change along the four feature blocks of a channel block, so the window is fetched at the
first of the four points only and the buffer is carried, untouched by the body, through the other three. Here: what
the buffer holds at every point is the channel block's scales on the moved part (`keep3`), and so at any channel
inside the array it is that channel's scale (`s_at`). -/

/-- The scale window is an input: no point writes its block back. -/
theorem noflush3 : ∀ t : Fin cfg0.N, (cfg0.win 3).flush t = false :=
  (by decide +kernel : ∀ t : Fin grid0.N, win0_3.flush t = false)

/-- The entries the scale window's transfers move at a point: row 0, the channels of the block that lie inside the row. -/
theorem moved3_iff (t : Fin cfg0.N) (y : win0_3.block.Idx) :
    win0_3.moved (grid0.coords t) y = true ↔ (y 0).val < 1 ∧ (y 1).val < min 1024 (11008 - 1024 * (t.val / 4 % 11)) := by
  rw [Window.moved_iff]
  constructor
  · intro h
    have h0 : (y 0).val < win0_3.xsize (grid0.coords t) 0 := h 0
    have h1 : (y 1).val < win0_3.xsize (grid0.coords t) 1 := h 1
    rw [(xs3 t).1] at h0; rw [(xs3 t).2] at h1
    exact ⟨h0, h1⟩
  · rintro ⟨h0, h1⟩ a
    match a with
    | ⟨0, _⟩ => show (y 0).val < win0_3.xsize (grid0.coords t) 0; rw [(xs3 t).1]; exact h0
    | ⟨1, _⟩ => show (y 1).val < win0_3.xsize (grid0.coords t) 1; rw [(xs3 t).2]; exact h1

/-- The moved part of what the proof data names for the scale buffer is the array's block there: the clamp in the
    channel index does not bite on the moved part. -/
theorem cut_after3 (c : Dev nD) (t : Fin cfg0.N) :
    win0_3.cut (grid0.coords t) ((dats m 0 c).after 3 t) = iblk m c 3 t := by
  funext j
  have hN : t.val < 176 := lt_of_lt_of_eq t.isLt N176
  have h0 : (j 0).val < win0_3.xsize (grid0.coords t) 0 := (j 0).isLt
  have h1 : (j 1).val < win0_3.xsize (grid0.coords t) 1 := (j 1).isLt
  rw [(xs3 t).1] at h0; rw [(xs3 t).2] at h1
  show (dats m 0 c).after 3 t (win0_3.xinj (grid0.coords t) j) = _
  rw [after3]
  show V m c main_v5 (ix2 (0 : Fin 1) (colG (t.val / 4 % 11) ((win0_3.xinj (grid0.coords t) j) 1))) = V m c main_v5 (((cfg0.win 3).blk t).view.emb j)
  refine congrArg (V m c main_v5) (funext fun a => Fin.ext ?_)
  match a with
  | ⟨0, _⟩ =>
    show 0 = win0_3.index t 0 * 1 + 1 * (j 0).val
    rw [(idx3 t).1]; omega
  | ⟨1, _⟩ =>
    show min (1024 * (t.val / 4 % 11) + (j 1).val) 11007 = win0_3.index t 1 * 1024 + 1 * (j 1).val
    rw [(idx3 t).2]; omega

/-- At the first point of a channel block the buffer was just fetched: the array's block on the moved part, anything elsewhere. -/
theorem before3_fetch (c : Dev nD) (t : Fin cfg0.N) (h : t.val % 4 = 0) (d) :
    (dats m 0 c).before 3 t d = win0_3.fill (grid0.coords t) d (iblk m c 3 t) := by
  unfold Dat.before; rw [if_pos ((fetch0_3 t).mpr h)]
  unfold Dat.fetched Dat.blockOf iblk; rw [A_eq]; try rfl

/-- At the other three the buffer is what the body left at the point before: no fetch, no write-back, never idle. -/
theorem before3_keep (c : Dev nD) (t : Fin cfg0.N) (h : t.val % 4 ≠ 0) (d) :
    (dats m 0 c).before 3 t d
      = win0_3.fill (grid0.coords ⟨t.val - 1, Nat.lt_of_le_of_lt (Nat.sub_le _ _) t.isLt⟩) d
          (win0_3.cut (grid0.coords ⟨t.val - 1, Nat.lt_of_le_of_lt (Nat.sub_le _ _) t.isLt⟩)
            ((dats m 0 c).after 3 ⟨t.val - 1, Nat.lt_of_le_of_lt (Nat.sub_le _ _) t.isLt⟩)) := by
  have ht : t.val ≠ 0 := fun e => h (by rw [e])
  have hf : (cfg0.win 3).fetch t = false := by
    cases hft : (cfg0.win 3).fetch t
    · rfl
    · exact absurd ((fetch0_3 t).mp hft) h
  rw [Dat.before_of_pos _ 3 t ht hf d, noflush3, if_neg Bool.false_ne_true]
  rfl

/-- (S1) At every point the scale buffer is, on the part the window's transfers move there, what the proof data names
    after the body, and anything elsewhere: what the loose post of an untouched buffer asks. -/
theorem keep3 (c : Dev nD) (t : Fin cfg0.N) (d) :
    ∃ d', (dats m 0 c).before 3 t d = win0_3.fill (grid0.coords t) d' (win0_3.cut (grid0.coords t) ((dats m 0 c).after 3 t)) := by
  by_cases h : t.val % 4 = 0
  · exact ⟨d, by rw [before3_fetch m c t h d, cut_after3]⟩
  · -- the buffer itself serves as the contents elsewhere: it agrees with the named contents on the moved part
    refine ⟨(dats m 0 c).before 3 t d, (win0_3.fill_congr_cut (grid0.coords t) ?_).symm⟩
    funext j
    have h0 : (j 0).val < win0_3.xsize (grid0.coords t) 0 := (j 0).isLt
    have h1 : (j 1).val < win0_3.xsize (grid0.coords t) 1 := (j 1).isLt
    rw [(xs3 t).1] at h0; rw [(xs3 t).2] at h1
    have hJ : (t.val - 1) / 4 % 11 = t.val / 4 % 11 := by omega
    -- the entry is moved at the point before too: same channel block
    have hmv : win0_3.moved (grid0.coords ⟨t.val - 1, Nat.lt_of_le_of_lt (Nat.sub_le _ _) t.isLt⟩) (win0_3.xinj (grid0.coords t) j) = true :=
      (moved3_iff _ _).mpr ⟨h0, by show (j 1).val < min 1024 (11008 - 1024 * ((t.val - 1) / 4 % 11)); rw [hJ]; exact h1⟩
    show (dats m 0 c).before 3 t d (win0_3.xinj (grid0.coords t) j) = (dats m 0 c).after 3 t (win0_3.xinj (grid0.coords t) j)
    rw [before3_keep m c t h d, Cert.LibClippedFill.fill_of_moved win0_3 _ _ _ _ hmv]
    show (dats m 0 c).after 3 ⟨t.val - 1, _⟩ (win0_3.xinj _ _) = _
    rw [after3, after3]
    show srow m c (ix2 (0 : Fin 1) (colG ((t.val - 1) / 4 % 11) _)) = srow m c (ix2 (0 : Fin 1) (colG (t.val / 4 % 11) _))
    rw [hJ]

/-- (S2) The scale buffer at a channel inside the array: that channel's scale — whatever the buffer holds past the row's end. -/
theorem s_at (c : Dev nD) (t : Fin cfg0.N) (d) (cc : Fin 1024) (hcc : 1024 * (t.val / 4 % 11) + cc.val < 11008) :
    (dats m 0 c).before 3 t d (ix2 (0 : Fin 1) cc) = srow m c (ix2 (0 : Fin 1) (colG (t.val / 4 % 11) cc)) := by
  obtain ⟨d', hd'⟩ := keep3 m c t d
  have hmv : win0_3.moved (grid0.coords t) (ix2 (0 : Fin 1) cc) = true :=
    (moved3_iff t _).mpr ⟨Nat.lt_one_iff.mpr rfl, by show cc.val < _; have := cc.isLt; omega⟩
  rw [hd', Cert.LibClippedFill.fill_of_moved win0_3 _ _ _ _ hmv]
  show (dats m 0 c).after 3 t (win0_3.xinj _ _) = _
  rw [after3]
  rfl

end Cert.KernelIdeal.Body

end
-- ==== Proof.IdealBody.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealAcc
import proofs.«127360_j47794396070042_2_alg».proof.Proof.IdealScale
import proofs.«127360_j47794396070042_2_alg».proof.Proof.IdealGrid
import proofs.«127360_j47794396070042_2_alg».proof.Proof.IdealSpec
import proofs.«127360_j47794396070042_2_alg».proof.Proof.IdealPay
import proofs.«127360_j47794396070042_2_alg».proof.Proof.LibClippedFill
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-! ## The invariant, unfolded -/

theorem PhiS_succ (c : Dev nD) (n : ℕ) :
    PhiS m c (n + 1) = iprop(iprop((∃ X, ⌜AccOK m c n X⌝ ∗ owns (c : Thread nD τ) scM fullShare X)) ∗ (∃ r, prngReg c r)) := rfl

theorem PhiS_pos (c : Dev nD) (n : ℕ) (h : n ≠ 0) :
    PhiS m c n = iprop(iprop((∃ X, ⌜AccOK m c (n - 1) X⌝ ∗ owns (c : Thread nD τ) scM fullShare X)) ∗ (∃ r, prngReg c r)) := by
  cases n with
  | zero => exact absurd rfl h
  | succ n => rfl

/-- Whatever the point, the invariant holds the accumulator at some contents. -/
theorem PhiS_any (c : Dev nD) (n : ℕ) :
    PhiS m c n ⊢ (iprop(iprop((∃ d, owns (c : Thread nD τ) scM fullShare d)) ∗ (∃ r, prngReg c r)) : sProp 𝕄) := by
  cases n with
  | zero => rw [show PhiS m c 0 = Pipeline.ΦA spec0 c from rfl, PhiA_eq]; try exact Idealize.SL.BI.Entails.refl _
  | succ n =>
    rw [PhiS_succ]
    iintro ⟨⟨%X, -, HS⟩, Hg⟩
    isplitl [HS]
    · iexists X; iexact HS
    iexact Hg

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-! ## What the obligation asks back of each window -/

/-- A window live at the point whose blocks tile its array: the buffer at what the proof data names. -/
theorem leaves_tight {c : Dev nD} (dat : Dat τ (Elt Ideal) Unit ℕ (UR sig nD τ) ℕ cfg0 c) (w : Fin cfg0.W) (t : Fin cfg0.N)
    (hi : cfg0.idle w (cfg0.grid.coords t) = false) (hl : cfg0.loose w = false) :
    (dat.leaves w t : sProp 𝕄) = owns (c : Thread nD τ) ((cfg0.win w).stage (cfg0.slots t w)) fullShare (dat.after w t) := by
  unfold Dat.leaves; rw [hi, hl]

/-- A window live at the point whose last block overhangs: the buffer at that on the part its transfers move. -/
theorem leaves_loose {c : Dev nD} (dat : Dat τ (Elt Ideal) Unit ℕ (UR sig nD τ) ℕ cfg0 c) (w : Fin cfg0.W) (t : Fin cfg0.N)
    (hi : cfg0.idle w (cfg0.grid.coords t) = false) (hl : cfg0.loose w = true) :
    (dat.leaves w t : sProp 𝕄) = iprop(∃ d, owns (c : Thread nD τ) ((cfg0.win w).stage (cfg0.slots t w)) fullShare
      ((cfg0.win w).fill (cfg0.grid.coords t) d ((cfg0.win w).cut (cfg0.grid.coords t) (dat.after w t)))) := by
  unfold Dat.leaves; rw [hi, hl]

/-- The result window away from the last feature block: idle and not written back. -/
theorem idle4_of (t : Fin cfg0.N) (h1 : ¬t.val % 4 = 3) : cfg0.idle 4 (cfg0.grid.coords t) = true := by
  rw [show cfg0.idle 4 (cfg0.grid.coords t) = cfg0.idle 4 (grid0.coords t) from rfl, idle4 t]; simp [h1]
theorem live4_of (t : Fin cfg0.N) (h1 : t.val % 4 = 3) : cfg0.idle 4 (cfg0.grid.coords t) = false := by
  rw [show cfg0.idle 4 (cfg0.grid.coords t) = cfg0.idle 4 (grid0.coords t) from rfl, idle4 t]; simp [h1]
theorem noflush4_of (t : Fin cfg0.N) (h1 : ¬t.val % 4 = 3) : (cfg0.win 4).flush t = false :=
  Bool.eq_false_iff.mpr fun h => h1 ((flush0_4 t).mp h)

/-! ## The body at a point -/

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t)

/-- The weight buffer handed back: as fetched, which on the moved part is what the proof data names. -/
theorem back2 (c : Dev nD) (t : Fin cfg0.N) (d) :
    (dats m 0 c).before 2 t d = win0_2.fill (grid0.coords t) d (win0_2.cut (grid0.coords t) ((dats m 0 c).after 2 t)) := by
  rw [before2, after2, win0_2.cut_fill]

set_option maxHeartbeats 1600000 in
/-- A middle feature block. -/
theorem sound_B (c : Dev nD) (t : Fin cfg0.N) (h0 : ¬t.val % 4 = 0) (h1 : ¬t.val % 4 = 3) :
    bodyPre m c t ⊢ wp frame (wpE (defs₀ (F := Ideal)) Variants.none c none) Set.univ (bodyAt0 t) (fun _ => bodyPost m c t) := by
  unfold bodyPre bodyPost bodyAt0
  have hz : t.val ≠ 0 := fun h => h0 (by rw [h])
  rw [show (dats m 0 c).owesAt () t.succ = (dats m 0 c).owesAt () t.castSucc from rfl, Phi_castSucc, Phi_succ, PhiS_succ,
    PhiS_pos m c _ hz,
    leaves_tight (dats m 0 c) 0 t rfl rfl, leaves_tight (dats m 0 c) 1 t rfl rfl,
    leaves_loose (dats m 0 c) 2 t rfl rfl, leaves_loose (dats m 0 c) 3 t rfl rfl,
    Dat.leaves_idle (dats m 0 c) 4 t (idle4_of t h1) (noflush4_of t h1), after0, after1]
  iintro ⟨⟨⟨%X, %hX, HS⟩, Hg⟩, Ho, ⟨%d0, H0⟩, ⟨%d1, H1⟩, ⟨%d2, H2⟩, ⟨%d3, H3⟩, ⟨%d4, H4⟩⟩
  obtain ⟨d3', e3⟩ := keep3 m c t d3
  iapply ((runB c (grid0.coords t) (ms0 t) (hs0 t) (ms1 t) (hs1 t) (ms2 t) (hs2 t) (ms3 t) (hs3 t) (ms4 t) (hs4 t) scM (Memref.isWhole_whole _) (fun h => h0 ((condFirst_iff t).mp h)) (fun h => h1 ((condLast_iff t).mp h))
    ((dats m 0 c).before 0 t d0) ((dats m 0 c).before 1 t d1) ((dats m 0 c).before 2 t d2) ((dats m 0 c).before 3 t d3) ((dats m 0 c).before 4 t d4) X).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%f, HS⟩⟩
  isplitl [HS Hg]
  · isplitl [HS]
    · iexists _
      isplitr
      · ipureintro
        exact acc_step_ok m c t.val h0 X hX _ _ _ (hi_at m c t d0) (lo_at m c t d1) (w_at m c t d2)
      unfold owns; iexists _; isplitr
      swap; · iexact HS
      ipureintro; exact leftB _ _ _ _ _ _ _ _ _ _ _ _ _ _ _ _ _ _ _ _ _ _ _ _
    iexact Hg
  isplitl [Ho]; · iexact Ho
  isplitl [H0]; · rw [before0]; iexact H0
  isplitl [H1]; · rw [before1]; iexact H1
  isplitl [H2]; · iexists d2; rw [← back2]; iexact H2
  isplitl [H3]; · iexists d3'; rw [← e3]; iexact H3
  iexists d4; iexact H4

/-- The result buffer handed back at the last feature block: what the body stored there is, on the part the
    write-back moves, the block of the result array. -/
theorem back4 (c : Dev nD) (t : Fin cfg0.N) (h1 : t.val % 4 = 3) (X : Vec Ideal S2048x1024 .f32) (hX : AccOK m c t.val X) (d3) :
    win0_4.fill (grid0.coords t) (k0_pay4 (F := Ideal) X ((dats m 0 c).before 3 t d3))
        (win0_4.cut (grid0.coords t) ((dats m 0 c).after 4 t))
      = k0_pay4 (F := Ideal) X ((dats m 0 c).before 3 t d3) := by
  apply win0_4.fill_congr_cut
  funext j
  show k0_pay4 (F := Ideal) X ((dats m 0 c).before 3 t d3) (win0_4.xinj (grid0.coords t) j)
    = (dats m 0 c).after 4 t (win0_4.xinj (grid0.coords t) j)
  rw [after4]
  have hj : (j 1).val < win0_4.xsize (grid0.coords t) 1 := (j 1).isLt
  rw [(xs4 t).2] at hj
  have hy := eq_ix2 (win0_4.xinj (grid0.coords t) j)
  have h1v : ((win0_4.xinj (grid0.coords t) j) 1).val = (j 1).val := rfl
  rw [hy]
  exact res_ok m c t.val h1 X hX _ (fun cc hcc => s_at m c t d3 cc hcc) _ _ (by rw [h1v]; omega)

set_option maxHeartbeats 1600000 in
/-- The first feature block. -/
theorem sound_A (c : Dev nD) (t : Fin cfg0.N) (h0 : t.val % 4 = 0) :
    bodyPre m c t ⊢ wp frame (wpE (defs₀ (F := Ideal)) Variants.none c none) Set.univ (bodyAt0 t) (fun _ => bodyPost m c t) := by
  have h1 : ¬t.val % 4 = 3 := by omega
  unfold bodyPre bodyPost bodyAt0
  rw [show (dats m 0 c).owesAt () t.succ = (dats m 0 c).owesAt () t.castSucc from rfl, Phi_castSucc, Phi_succ, PhiS_succ,
    leaves_tight (dats m 0 c) 0 t rfl rfl, leaves_tight (dats m 0 c) 1 t rfl rfl,
    leaves_loose (dats m 0 c) 2 t rfl rfl, leaves_loose (dats m 0 c) 3 t rfl rfl,
    Dat.leaves_idle (dats m 0 c) 4 t (idle4_of t h1) (noflush4_of t h1), after0, after1]
  refine (sep_mono (PhiS_any m c t.val) .rfl).trans ?_
  iintro ⟨⟨⟨%X, HS⟩, Hg⟩, Ho, ⟨%d0, H0⟩, ⟨%d1, H1⟩, ⟨%d2, H2⟩, ⟨%d3, H3⟩, ⟨%d4, H4⟩⟩
  obtain ⟨d3', e3⟩ := keep3 m c t d3
  iapply ((runA c (grid0.coords t) (ms0 t) (hs0 t) (ms1 t) (hs1 t) (ms2 t) (hs2 t) (ms3 t) (hs3 t) (ms4 t) (hs4 t) scM (Memref.isWhole_whole _) ((condFirst_iff t).mpr h0) (fun h => h1 ((condLast_iff t).mp h))
    ((dats m 0 c).before 0 t d0) ((dats m 0 c).before 1 t d1) ((dats m 0 c).before 2 t d2) ((dats m 0 c).before 3 t d3) ((dats m 0 c).before 4 t d4)).2 Set.univ _)
  isplitl [H0]; · iexact H0
  isplitl [H1]; · iexact H1
  isplitl [H2]; · iexact H2
  isplitl [H3]; · iexact H3
  isplitl [H4]; · iexact H4
  isplitl [HS]; · iexists X; iexact HS
  iintro ⟨H0, H1, H2, H3, H4, ⟨%f, HS⟩⟩
  isplitl [HS Hg]
  · isplitl [HS]
    · iexists _
      isplitr
      · ipureintro
        exact acc_first_ok m c t.val h0 _ _ _ (hi_at m c t d0) (lo_at m c t d1) (w_at m c t d2)
      unfold owns; iexists _; isplitr
      swap; · iexact HS
      ipureintro; exact leftA _ _ _ _ _ _ _ _ _ _ _ _ _ _ _ _ _ _ _ _ _ _ _
    iexact Hg
  isplitl [Ho]; · iexact Ho
  isplitl [H0]; · rw [before0]; iexact H0
  isplitl [H1]; · rw [before1]; iexact H1
  isplitl [H2]; · iexists d2; rw [← back2]; iexact H2
  isplitl [H3]; · iexists d3'; rw [← e3]; iexact H3
  iexists d4; iexact H4

set_option maxHeartbeats 1600000 in
/-- The last feature block. -/
theorem sound_C (c : Dev nD) (t : Fin cfg0.N) (h1 : t.val % 4 = 3) :
    bodyPre m c t ⊢ wp frame (wpE (defs₀ (F := Ideal)) Variants.none c none) Set.univ (bodyAt0 t) (fun _ => bodyPost m c t) := by
  have h0 : ¬t.val % 4 = 0 := by omega
  have hz : t.val ≠ 0 := fun h => h0 (by rw [h])
  unfold bodyPre bodyPost bodyAt0
  rw [show (dats m 0 c).owesAt () t.succ = (dats m 0 c).owesAt () t.castSucc from rfl, Phi_castSucc, Phi_succ, PhiS_succ,
    PhiS_pos m c _ hz,
    leaves_tight (dats m 0 c) 0 t rfl rfl, leaves_tight (dats m 0 c) 1 t rfl rfl,
    leaves_loose (dats m 0 c) 2 t rfl rfl, leaves_loose (dats m 0 c) 3 t rfl rfl,
    leaves_loose (dats m 0 c) 4 t (live4_of t h1) rfl, after0, after1]
  iintro ⟨⟨⟨%X, %hX, HS⟩, Hg⟩, Ho, ⟨%d0, H0⟩, ⟨%d1, H1⟩, ⟨%d2, H2⟩, ⟨%d3, H3⟩, ⟨%d4, H4⟩⟩
  obtain ⟨d3', e3⟩ := keep3 m c t d3
  have hX' := acc_step_ok m c t.val h0 X hX _ _ _ (hi_at m c t d0) (lo_at m c t d1) (w_at m c t d2)
  iapply ((runC c (grid0.coords t) (ms0 t) (hs0 t) (ms1 t) (hs1 t) (ms2 t) (hs2 t) (ms3 t) (hs3 t) (ms4 t) (hs4 t) scM (Memref.isWhole_whole _) (fun h => h0 ((condFirst_iff t).mp h)) ((condLast_iff t).mpr h1)
    ((dats m 0 c).before 0 t d0) ((dats m 0 c).before 1 t d1) ((dats m 0 c).before 2 t d2) ((dats m 0 c).before 3 t d3) X).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%f7, H7⟩, ⟨%f, HS⟩⟩
  isplitl [HS Hg]
  · isplitl [HS]
    · iexists _
      isplitr
      · ipureintro; exact hX'
      unfold owns; iexists _; isplitr
      swap; · iexact HS
      ipureintro; exact leftC _ _ _ _ _ _ _ _ _ _ _ _ _ _ _ _ _ _ _ _ _ _ _
    iexact Hg
  isplitl [Ho]; · iexact Ho
  isplitl [H0]; · rw [before0]; iexact H0
  isplitl [H1]; · rw [before1]; iexact H1
  isplitl [H2]; · iexists d2; rw [← back2]; iexact H2
  isplitl [H3]; · iexists d3'; rw [← e3]; iexact H3
  iexists (k0_pay4 (F := Ideal) (k0_pay3 (F := Ideal) (k0_pay2 (F := Ideal) X ((dats m 0 c).before 0 t d0) ((dats m 0 c).before 2 t d2)) ((dats m 0 c).before 1 t d1) ((dats m 0 c).before 2 t d2)) ((dats m 0 c).before 3 t d3))
  rw [show (cfg0.win 4).fill (cfg0.grid.coords t) = win0_4.fill (grid0.coords t) from rfl,
    show (cfg0.win 4).cut (cfg0.grid.coords t) = win0_4.cut (grid0.coords t) from rfl, back4 m c t h1 _ hX' d3]
  unfold owns; iexists _; isplitr
  swap; · iexact H7
  ipureintro; exact resC _ _ _ _ _ _ _ _ _ _ _ _ _ _ _ _ _ _ _ _ _ _ _

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 4 = 0
  · exact sound_A m c t h0
  by_cases h1 : t.val % 4 = 3
  · exact sound_C m c t h1
  · exact sound_B m c t h0 h1

/-- The library's body obligation, at every point. -/
theorem body_obligation (c : Dev nD) :
    BodyObligationLoose (dats m 0 c) (defs₀ (F := Ideal)) Variants.none () Set.univ := fun t => by
  rw [bigSep_W0, bigSep_W0]
  exact sound_body m c t

end Cert.KernelIdeal.Body

end
-- ==== Proof.IdealRun.lean ====
import proofs.«127360_j47794396070042_2_alg».proof.Proof.Gen.KernelIdeal.Frame
import proofs.«127360_j47794396070042_2_alg».proof.Proof.Gen.KernelIdeal.Skeleton
import proofs.«127360_j47794396070042_2_alg».proof.Proof.IdealBody
import proofs.«127360_j47794396070042_2_alg».proof.Proof.IdealGrid
import proofs.«127360_j47794396070042_2_alg».proof.Proof.IdealSpec
import proofs.«127360_j47794396070042_2_alg».proof.Proof.IdealPay
import proofs.«127360_j47794396070042_2_alg».proof.Proof.LibClippedFill
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-! The region's run. Before the first point the invariant is what the region is handed (the accumulator at anything);
    after the last it gives that back, the accumulator's contents forgotten. With the body obligation this is all the
    pipeline's launch theorem asks; it concludes that the result array ends at what the proof data computes from the
    write-backs and that every buffer the region bypasses ends as the host lines after it leave it. -/

theorem hin (c : Dev nD) : Pipeline.ΦA spec0 c ⊢ (dats m 0 c).Φ 0 := by
  rw [show (dats m 0 c).Φ 0 = PhiS m c 0 from by dsimp only [dats]; rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from by dsimp only [dats]; simp only [Fin.val_last]]
  refine (PhiS_any m c cfg0.N).trans ?_
  rw [PhiA_eq]
  try exact Idealize.SL.BI.Entails.refl _

-- the launch theorem's implicit arguments are found by unifying its conclusion with this one, which takes unfolding
-- plain definitions in a metavariable's type
set_option backward.isDefEq.respectTransparency.types false in
/-- For any extended-real contents of memory with zero counters, every weakly fair execution of the kernel program
    terminates, with the result array at the proof data's closed form and every bypassing buffer as the host lines
    after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Body

end
-- ==== Proof.lean ====
/-
  A linear layer with a ternary-quantized weight, computed two ways, gives one result on finite inputs.

  The input is x : [4, 2048, 4096], the weight w : [11008, 4096], the scale s : [11008]. Both programs quantize the
  weight to q = min(1, max(-1, roundeven(w / (1/2)))) — the same three operations on the same element on both sides,
  so nothing is asked of q beyond its being a real number in [-1, 1], which the clip gives for every w.

  The reference contracts the input against the scaled quantized weight:
      out[b, p, o] = ∑ k, x[b, p, k] * (q[o, k] * s[o]).
  The kernel lays x out as 8192 rows, walks a 4 × 11 × 4 grid of (row block of 2048, channel block of 1024, feature
  block of 1024), adds for each feature block the product x · q and the product (x - x) · q into an accumulator, and
  multiplies the finished sum by s[o].

  Over the extended reals the two agree because the inputs are finite. x - x = 0 needs x finite (at an infinity the
  difference is not zero), after which the second product vanishes; and moving s[o] across the contraction is
  distributivity over a finite sum of real numbers. The rest is a matter of tiling: the four feature blocks partition
  the 4096 features, so the four partial sums re-index onto the one sum; and the eleventh channel block overhangs the
  11008 channels — what it computes past the array's end is never written back, and the blocks that are written back
  cover the result array.

  The word-level kernel's frame and the idealized kernel's frame are runs of the same tiled program; the idealization
  rewrote nothing, so it is preserved trivially; the reference's run is its operations composed.
-/
import proofs.«127360_j47794396070042_2_alg».proof.Defs
import proofs.«127360_j47794396070042_2_alg».proof.Proof.Gen.Kernel
import proofs.«127360_j47794396070042_2_alg».proof.Proof.Gen.Kernel.Skeleton
import proofs.«127360_j47794396070042_2_alg».proof.Proof.Gen.Kernel.Launch
import proofs.«127360_j47794396070042_2_alg».proof.Proof.Gen.Kernel.Points
import proofs.«127360_j47794396070042_2_alg».proof.Proof.Gen.Kernel.Frame
import proofs.«127360_j47794396070042_2_alg».proof.Proof.Gen.KernelIdeal
import proofs.«127360_j47794396070042_2_alg».proof.Proof.Gen.KernelIdeal.Skeleton
import proofs.«127360_j47794396070042_2_alg».proof.Proof.Gen.KernelIdeal.Launch
import proofs.«127360_j47794396070042_2_alg».proof.Proof.Gen.KernelIdeal.Points
import proofs.«127360_j47794396070042_2_alg».proof.Proof.Gen.KernelIdeal.Frame
import proofs.«127360_j47794396070042_2_alg».proof.Proof.Gen.ReferenceIdeal
import proofs.«127360_j47794396070042_2_alg».proof.Proof.Gen.Pre_finite_inputs
import proofs.«127360_j47794396070042_2_alg».proof.Proof.BitsFrame
import proofs.«127360_j47794396070042_2_alg».proof.Proof.Algebra
import proofs.«127360_j47794396070042_2_alg».proof.Proof.Finite
import proofs.«127360_j47794396070042_2_alg».proof.Proof.RefValue
import proofs.«127360_j47794396070042_2_alg».proof.Proof.IdealResult
import proofs.«127360_j47794396070042_2_alg».proof.Proof.IdealFinal
import proofs.«127360_j47794396070042_2_alg».proof.Proof.IdealRun
import Idealize.ShloMosaic.Adequacy
import Idealize.ShloMosaic.Init

noncomputable section

namespace Cert.Proof

open Idealize.ShloMosaic Idealize.ShloMosaic.TcCoe Idealize.SL.Sem

/-- The word-level kernel runs, and its three argument arrays end as launched. -/
theorem frameKernel : Cert.frame_Kernel := fun m ρ _ => Cert.Kernel.Body.frame (F := Bits) m ρ

/-- The idealized kernel runs, and its three argument arrays end as launched. -/
theorem frameKernelIdeal : Cert.frame_KernelIdeal := fun m ρ _ =>
  Cert.KernelIdeal.Gen.frame_of m ρ (Cert.KernelIdeal.Body.dats m) (Cert.KernelIdeal.Body.A_eq m)
    (Cert.KernelIdeal.Body.run_main m ρ)

/-- The reference runs, and its three argument arrays end as launched. -/
theorem frameReferenceIdeal : Cert.frame_ReferenceIdeal := fun m ρ _ =>
  (θ_run Cert.ReferenceIdeal.defs _ _).mono (fun _ h c => (h c).2) (Cert.Bridge.Ref.run m ρ)

/-- The idealization rewrote no operation. -/
theorem preserves : Cert.preserves_Kernel_KernelIdeal := trivial

/-- On finite inputs both idealized programs end with the same result, the kernel's arrangement of the sum: the
    kernel's run ends there by its tiling, the reference's at the reference's arrangement, and the two arrangements
    are equal for finite inputs and scales. -/
theorem algebraic : Cert.algebraic_KernelIdeal_ReferenceIdeal := by
  intro m ρ m' ρ' hpre hagree
  refine ⟨fun c => Cert.Bridge.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Host.run_value_of m ρ (Cert.KernelIdeal.Body.dats m) (fun c => Cert.KernelIdeal.Body.final m c)
      (Cert.KernelIdeal.Body.run_main m ρ), ?_⟩
  refine (θ_run Cert.ReferenceIdeal.defs _ _).mono (fun _ hr c => ⟨?_, (hr c).2⟩) (Cert.Bridge.Ref.run m' ρ')
  obtain ⟨hx, _, hs⟩ := Cert.Bridge.finite_of_pre _ _ _ (hpre c)
  rw [(hr c).1, (hagree c).1, (hagree c).2.1, (hagree c).2.2]
  exact (Cert.Bridge.kerOut_eq_refOut _ _ _ hx hs).symm

theorem claim : Cert.Claim :=
  ⟨Cert.Kernel.Gen.facts, Cert.KernelIdeal.Gen.facts, Cert.ReferenceIdeal.Gen.facts, Cert.Pre_finite_inputs.Gen.facts,
    frameKernel, frameKernelIdeal, frameReferenceIdeal, preserves, algebraic⟩

end Cert.Proof

end
